-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S36864x128 : Shape := ⟨2, ![36864, 128]⟩
abbrev S4096x32768 : Shape := ⟨2, ![4096, 32768]⟩
abbrev S256x128 : Shape := ⟨2, ![256, 128]⟩
abbrev S4096 : Shape := ⟨1, ![4096]⟩
abbrev S32768 : Shape := ⟨1, ![32768]⟩
abbrev S_ : Shape := ⟨0, ![]⟩

class Facts : Prop where
  bcast_S_S36864x128 : S_.BroadcastsInDim S36864x128 (![] : Fin 0 → Fin S36864x128.rank)
  reducesTo_S36864x128_S_d0_1 : S36864x128.ReducesTo [0, 1] S_
  h_S_ : 0 < S_.numel
  bcast_S_S4096x32768 : S_.BroadcastsInDim S4096x32768 (![] : Fin 0 → Fin S4096x32768.rank)
  reducesTo_S4096x32768_S_d0_1 : S4096x32768.ReducesTo [0, 1] S_
  bcast_S_S256x128 : S_.BroadcastsInDim S256x128 (![] : Fin 0 → Fin S256x128.rank)
  reducesTo_S256x128_S_d0_1 : S256x128.ReducesTo [0, 1] S_

variable [Facts]

def fn {F : FTy → Type} [FloatOps F] (main_arg0 : FVec F S36864x128 .f32) (main_arg1 : FVec F S4096x32768 .f32) (main_arg2 : FVec F S256x128 .f32) (main_arg3 : IVec S4096 32) (main_arg4 : IVec S32768 32) : IVec S_ 1 :=
  let main_v0 : FVec F S36864x128 .f32 := Host.absf main_arg0
  let main_cst : FVec F S_ .f32 := constant S_ .f32 0x7F800000#32
  let main_v1 : FVec F S36864x128 .f32 := broadcastInDim S36864x128 ![] bcast_S_S36864x128 main_cst
  let main_v2 : IVec S36864x128 1 := cmpf .olt main_v0 main_v1
  let main_c : IVec S_ 1 := constantI S_ 1 1#1
  let main_v3 : IVec S_ 1 := (fun x v => Host.reduce IntOp.andi x v reducesTo_S36864x128_S_d0_1 h_S_) main_v2 main_c
  let main_v4 : FVec F S4096x32768 .f32 := Host.absf main_arg1
  let main_cst_0 : FVec F S_ .f32 := constant S_ .f32 0x7F800000#32
  let main_v5 : FVec F S4096x32768 .f32 := broadcastInDim S4096x32768 ![] bcast_S_S4096x32768 main_cst_0
  let main_v6 : IVec S4096x32768 1 := cmpf .olt main_v4 main_v5
  let main_c_1 : IVec S_ 1 := constantI S_ 1 1#1
  let main_v7 : IVec S_ 1 := (fun x v => Host.reduce IntOp.andi x v reducesTo_S4096x32768_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  main_v13
-- ==== Kernel.lean ====
abbrev S36864x128 : Shape := ⟨2, ![36864, 128]⟩
abbrev S4096x32768 : Shape := ⟨2, ![4096, 32768]⟩
abbrev S256x128 : Shape := ⟨2, ![256, 128]⟩
abbrev S4096 : Shape := ⟨1, ![4096]⟩
abbrev S32768 : Shape := ⟨1, ![32768]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4096x128 : Shape := ⟨2, ![4096, 128]⟩
abbrev S32768x1 : Shape := ⟨2, ![32768, 1]⟩
abbrev S32768x128 : Shape := ⟨2, ![32768, 128]⟩
abbrev S512x2048 : Shape := ⟨2, ![512, 2048]⟩
abbrev S512x128 : Shape := ⟨2, ![512, 128]⟩
abbrev S2048x128 : Shape := ⟨2, ![2048, 128]⟩
abbrev S512x256 : Shape := ⟨2, ![512, 256]⟩

abbrev nBuf : Space → Nat
  | .hbm => 52
  | .vmem => 9
  | .smem => 0
  | _ => 0

abbrev bufTy : (tb : Table) → Fin (tcTables nBuf tb) → BufTy
  | .hbm, ⟨0, _⟩ => ⟨S36864x128, .f32⟩
  | .hbm, ⟨1, _⟩ => ⟨S4096x32768, .f32⟩
  | .hbm, ⟨2, _⟩ => ⟨S256x128, .f32⟩
  | .hbm, ⟨3, _⟩ => ⟨S4096, .i32⟩
  | .hbm, ⟨4, _⟩ => ⟨S32768, .i32⟩
  | .hbm, ⟨5, _⟩ => ⟨S_, .i32⟩
  | .hbm, ⟨6, _⟩ => ⟨S4096, .i32⟩
  | .hbm, ⟨7, _⟩ => ⟨S4096, .i1⟩
  | .hbm, ⟨8, _⟩ => ⟨S_, .i32⟩
  | .hbm, ⟨9, _⟩ => ⟨S4096, .i32⟩
  | .hbm, ⟨10, _⟩ => ⟨S4096, .i32⟩
  | .hbm, ⟨11, _⟩ => ⟨S4096, .i32⟩
  | .hbm, ⟨12, _⟩ => ⟨S4096x1, .i32⟩
  | .hbm, ⟨13, _⟩ => ⟨S1, .i32⟩
  | .hbm, ⟨14, _⟩ => ⟨S_, .i32⟩
  | .hbm, ⟨15, _⟩ => ⟨S4096x1, .i32⟩
  | .hbm, ⟨16, _⟩ => ⟨S4096x1, .i1⟩
  | .hbm, ⟨17, _⟩ => ⟨S1x1, .i32⟩
  | .hbm, ⟨18, _⟩ => ⟨S4096x1, .i32⟩
  | .hbm, ⟨19, _⟩ => ⟨S4096x1, .i1⟩
  | .hbm, ⟨20, _⟩ => ⟨S4096x1, .i1⟩
  | .hbm, ⟨21, _⟩ => ⟨S_, .i1⟩
  | .hbm, ⟨22, _⟩ => ⟨S4096, .i1⟩
  | .hbm, ⟨23, _⟩ => ⟨S4096x128, .f32⟩
  | .hbm, ⟨24, _⟩ => ⟨S4096x128, .i1⟩
  | .hbm, ⟨25, _⟩ => ⟨S_, .f32⟩
  | .hbm, ⟨26, _⟩ => ⟨S4096x128, .f32⟩
  | .hbm, ⟨27, _⟩ => ⟨S4096x128, .f32⟩
  | .hbm, ⟨28, _⟩ => ⟨S_, .i32⟩
  | .hbm, ⟨29, _⟩ => ⟨S32768, .i32⟩
  | .hbm, ⟨30, _⟩ => ⟨S32768, .i1⟩
  | .hbm, ⟨31, _⟩ => ⟨S_, .i32⟩
  | .hbm, ⟨32, _⟩ => ⟨S32768, .i32⟩
  | .hbm, ⟨33, _⟩ => ⟨S32768, .i32⟩
  | .hbm, ⟨34, _⟩ => ⟨S32768, .i32⟩
  | .hbm, ⟨35, _⟩ => ⟨S32768x1, .i32⟩
  | .hbm, ⟨36, _⟩ => ⟨S1, .i32⟩
  | .hbm, ⟨37, _⟩ => ⟨S_, .i32⟩
  | .hbm, ⟨38, _⟩ => ⟨S32768x1, .i32⟩
  | .hbm, ⟨39, _⟩ => ⟨S32768x1, .i1⟩
  | .hbm, ⟨40, _⟩ => ⟨S1x1, .i32⟩
  | .hbm, ⟨41, _⟩ => ⟨S32768x1, .i32⟩
  | .hbm, ⟨42, _⟩ => ⟨S32768x1, .i1⟩
  | .hbm, ⟨43, _⟩ => ⟨S32768x1, .i1⟩
  | .hbm, ⟨44, _⟩ => ⟨S_, .i1⟩
  | .hbm, ⟨45, _⟩ => ⟨S32768, .i1⟩
  | .hbm, ⟨46, _⟩ => ⟨S32768x128, .f32⟩
  | .hbm, ⟨47, _⟩ => ⟨S32768x128, .i1⟩
  | .hbm, ⟨48, _⟩ => ⟨S_, .f32⟩
  | .hbm, ⟨49, _⟩ => ⟨S32768x128, .f32⟩
  | .hbm, ⟨50, _⟩ => ⟨S32768x128, .f32⟩
  | .hbm, ⟨51, _⟩ => ⟨S4096x128, .f32⟩
  | .local _ .vmem, ⟨0, _⟩ => ⟨S512x2048, .f32⟩
  | .local _ .vmem, ⟨1, _⟩ => ⟨S512x2048, .f32⟩
  | .local _ .vmem, ⟨2, _⟩ => ⟨S32768x128, .f32⟩
  | .local _ .vmem, ⟨3, _⟩ => ⟨S512x128, .f32⟩
  | .local _ .vmem, ⟨4, _⟩ => ⟨S512x128, .f32⟩
  | .local _ .vmem, ⟨5, _⟩ => ⟨S256x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | _, _ => ⟨S36864x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v1 : Ref sig .tc := ⟨.hbm, 50, rfl⟩
abbrev main_v2 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c2048_i32 : BitVec 32 := 2048#32
  let v5 : BitVec 32 := Scalar.muli arg1 c2048_i32
  v5
def k0_off1 (i : grid0.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0_2 : Index := 0#32
  ![v7.toNat, 0]
def k0_cond2 (i : grid0.Coords) : BitVec 1 :=
  let arg1 : BitVec 32 := BitVec.ofNat 32 (i 1).val
  let c15_i32 : BitVec 32 := 15#32
  let v17 : BitVec 1 := Scalar.cmpi .eq arg1 c15_i32
  let v18 : BitVec 32 := Scalar.extui v17
  let c0_i32_7 : BitVec 32 := 0#32
  let v19 : BitVec 1 := Scalar.cmpi .ne v18 c0_i32_7
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S32768x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4096x128_0 : S4096.BroadcastsInDim S4096x128 (![0] : Fin 1 → Fin S4096x128.rank)
  bcast_S_S4096x128 : S_.BroadcastsInDim S4096x128 (![] : Fin 0 → Fin S4096x128.rank)
  bcast_S_S32768 : S_.BroadcastsInDim S32768 (![] : Fin 0 → Fin S32768.rank)
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S1x1_S32768x1_0_1 : S1x1.BroadcastsInDim S32768x1 (![0, 1] : Fin 2 → Fin S32768x1.rank)
  reducesTo_S32768x1_S32768_d1 : S32768x1.ReducesTo [1] S32768
  bcast_S32768_S32768x128_0 : S32768.BroadcastsInDim S32768x128 (![0] : Fin 1 → Fin S32768x128.rank)
  bcast_S_S32768x128 : S_.BroadcastsInDim S32768x128 (![] : Fin 0 → Fin S32768x128.rank)
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  h_S2048x128 : 0 < S2048x128.numel
  shapeCasts_S2048x128_S2048x128 : S2048x128.ShapeCasts S2048x128
  concatenates_S512x128_S512x128_S512x256_d1 : Shape.Concatenates [S512x128, S512x128] S512x256 1
  inb_S256x128_S256x128_0_0 : ∀ a, (![0, 0] : Fin 2 → Nat) a + S256x128.size a ≤ S256x128.size a
  h_S256x128 : 0 < S256x128.numel
  gather_S36864x128_S4096x1_S4096x128_1_0_n_n_0_1_1128_wf : GatherDims.WF S36864x128 S4096x1 S4096x128 [1] [0] [] [0] [] 1 ![1, 128]
  gather_S36864x128_S32768x1_S32768x128_1_0_n_n_0_1_1128_wf : GatherDims.WF S36864x128 S32768x1 S32768x128 [1] [0] [] [0] [] 1 ![1, 128]
  dot_S512x2048_S2048x128_S512x128_1_0_0_1_n_n_wf : DotDims.WF S512x2048 S2048x128 S512x128 [1] [0] [0] [1] [] []
  dot_S512x256_S256x128_S512x128_1_0_0_1_n_n_wf : DotDims.WF S512x256 S256x128 S512x128 [1] [0] [0] [1] [] []
  hrank0 : 0 < grid0.rank
  k0_mult1_dvd : ∀ i : grid0.Coords, 2048 ∣ (k0_mult1 i).toNat
  k0_off1_inb : ∀ i : grid0.Coords, ∀ a, (k0_off1 i) a + S2048x128.size a ≤ S32768x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x32768.size a
  hwx0_0 : ∀ i : grid0.Coords, EltTy.bits .f32 = 32 ∨ (Rect.block (s := S4096x32768) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32768x128.size a ≤ S32768x128.size a
  hwx0_1 : ∀ i : grid0.Coords, EltTy.bits .f32 = 32 ∨ (Rect.block (s := S32768x128) S32768x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S4096x128.size a
  hwx0_2 : ∀ i : grid0.Coords, EltTy.bits .f32 = 32 ∨ (Rect.block (s := S4096x128) S512x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S4096x128.size a
  hwx0_4 : ∀ i : grid0.Coords, EltTy.bits .f32 = 32 ∨ (Rect.block (s := S4096x128) S512x128.size (cc0_transform_4 i) (hinb0_4 i)).WholeWords (EltTy.packing .f32)

variable [Facts₀]

def gather_S36864x128_S4096x1_S4096x128_1_0_n_n_0_1_1128 : GatherDims S36864x128 S4096x1 S4096x128 where
  offsetDims := [1]
  collapsedSliceDims := [0]
  operandBatchingDims := []
  startIndicesBatchingDims := []
  startIndexMap := [0]
  indexVectorDim := 1
  sliceSizes := ![1, 128]
  wf := gather_S36864x128_S4096x1_S4096x128_1_0_n_n_0_1_1128_wf
def gather_S36864x128_S32768x1_S32768x128_1_0_n_n_0_1_1128 : GatherDims S36864x128 S32768x1 S32768x128 where
  offsetDims := [1]
  collapsedSliceDims := [0]
  operandBatchingDims := []
  startIndicesBatchingDims := []
  startIndexMap := [0]
  indexVectorDim := 1
  sliceSizes := ![1, 128]
  wf := gather_S36864x128_S32768x1_S32768x128_1_0_n_n_0_1_1128_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf

abbrev win0_0 : Pipeline.Window sig grid0 :=
  Pipeline.Window.ofSpec (Memref.whole main_arg1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32768x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S36864x128 : Shape := ⟨2, ![36864, 128]⟩
abbrev S4096x32768 : Shape := ⟨2, ![4096, 32768]⟩
abbrev S256x128 : Shape := ⟨2, ![256, 128]⟩
abbrev S4096 : Shape := ⟨1, ![4096]⟩
abbrev S32768 : Shape := ⟨1, ![32768]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4096x128 : Shape := ⟨2, ![4096, 128]⟩
abbrev S32768x1 : Shape := ⟨2, ![32768, 1]⟩
abbrev S32768x128 : Shape := ⟨2, ![32768, 128]⟩
abbrev S4096x256 : Shape := ⟨2, ![4096, 256]⟩

abbrev nBuf : Space → Nat
  | .hbm => 57
  | .vmem => 0
  | .smem => 0
  | _ => 0

abbrev bufTy : (tb : Table) → Fin (tcTables nBuf tb) → BufTy
  | .hbm, ⟨0, _⟩ => ⟨S36864x128, .f32⟩
  | .hbm, ⟨1, _⟩ => ⟨S4096x32768, .f32⟩
  | .hbm, ⟨2, _⟩ => ⟨S256x128, .f32⟩
  | .hbm, ⟨3, _⟩ => ⟨S4096, .i32⟩
  | .hbm, ⟨4, _⟩ => ⟨S32768, .i32⟩
  | .hbm, ⟨5, _⟩ => ⟨S_, .i32⟩
  | .hbm, ⟨6, _⟩ => ⟨S4096, .i32⟩
  | .hbm, ⟨7, _⟩ => ⟨S4096, .i1⟩
  | .hbm, ⟨8, _⟩ => ⟨S_, .i32⟩
  | .hbm, ⟨9, _⟩ => ⟨S4096, .i32⟩
  | .hbm, ⟨10, _⟩ => ⟨S4096, .i32⟩
  | .hbm, ⟨11, _⟩ => ⟨S4096, .i32⟩
  | .hbm, ⟨12, _⟩ => ⟨S4096x1, .i32⟩
  | .hbm, ⟨13, _⟩ => ⟨S1, .i32⟩
  | .hbm, ⟨14, _⟩ => ⟨S_, .i32⟩
  | .hbm, ⟨15, _⟩ => ⟨S4096x1, .i32⟩
  | .hbm, ⟨16, _⟩ => ⟨S4096x1, .i1⟩
  | .hbm, ⟨17, _⟩ => ⟨S1x1, .i32⟩
  | .hbm, ⟨18, _⟩ => ⟨S4096x1, .i32⟩
  | .hbm, ⟨19, _⟩ => ⟨S4096x1, .i1⟩
  | .hbm, ⟨20, _⟩ => ⟨S4096x1, .i1⟩
  | .hbm, ⟨21, _⟩ => ⟨S_, .i1⟩
  | .hbm, ⟨22, _⟩ => ⟨S4096, .i1⟩
  | .hbm, ⟨23, _⟩ => ⟨S4096x128, .f32⟩
  | .hbm, ⟨24, _⟩ => ⟨S4096x128, .i1⟩
  | .hbm, ⟨25, _⟩ => ⟨S_, .f32⟩
  | .hbm, ⟨26, _⟩ => ⟨S4096x128, .f32⟩
  | .hbm, ⟨27, _⟩ => ⟨S4096x128, .f32⟩
  | .hbm, ⟨28, _⟩ => ⟨S_, .i32⟩
  | .hbm, ⟨29, _⟩ => ⟨S32768, .i32⟩
  | .hbm, ⟨30, _⟩ => ⟨S32768, .i1⟩
  | .hbm, ⟨31, _⟩ => ⟨S_, .i32⟩
  | .hbm, ⟨32, _⟩ => ⟨S32768, .i32⟩
  | .hbm, ⟨33, _⟩ => ⟨S32768, .i32⟩
  | .hbm, ⟨34, _⟩ => ⟨S32768, .i32⟩
  | .hbm, ⟨35, _⟩ => ⟨S32768x1, .i32⟩
  | .hbm, ⟨36, _⟩ => ⟨S1, .i32⟩
  | .hbm, ⟨37, _⟩ => ⟨S_, .i32⟩
  | .hbm, ⟨38, _⟩ => ⟨S32768x1, .i32⟩
  | .hbm, ⟨39, _⟩ => ⟨S32768x1, .i1⟩
  | .hbm, ⟨40, _⟩ => ⟨S1x1, .i32⟩
  | .hbm, ⟨41, _⟩ => ⟨S32768x1, .i32⟩
  | .hbm, ⟨42, _⟩ => ⟨S32768x1, .i1⟩
  | .hbm, ⟨43, _⟩ => ⟨S32768x1, .i1⟩
  | .hbm, ⟨44, _⟩ => ⟨S_, .i1⟩
  | .hbm, ⟨45, _⟩ => ⟨S32768, .i1⟩
  | .hbm, ⟨46, _⟩ => ⟨S32768x128, .f32⟩
  | .hbm, ⟨47, _⟩ => ⟨S32768x128, .i1⟩
  | .hbm, ⟨48, _⟩ => ⟨S_, .f32⟩
  | .hbm, ⟨49, _⟩ => ⟨S32768x128, .f32⟩
  | .hbm, ⟨50, _⟩ => ⟨S32768x128, .f32⟩
  | .hbm, ⟨51, _⟩ => ⟨S4096x128, .f32⟩
  | .hbm, ⟨52, _⟩ => ⟨S4096x256, .f32⟩
  | .hbm, ⟨53, _⟩ => ⟨S4096x128, .f32⟩
  | .hbm, ⟨54, _⟩ => ⟨S_, .f32⟩
  | .hbm, ⟨55, _⟩ => ⟨S4096x128, .f32⟩
  | .hbm, ⟨56, _⟩ => ⟨S4096x128, .f32⟩
  | _, _ => ⟨S36864x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v1 : Ref sig .tc := ⟨.hbm, 50, rfl⟩
abbrev main_v2 : Ref sig .tc := ⟨.hbm, 51, rfl⟩
abbrev main_v3 : Ref sig .tc := ⟨.hbm, 52, rfl⟩
abbrev main_v4 : Ref sig .tc := ⟨.hbm, 53, rfl⟩
abbrev main_call2_cst : Ref sig .tc := ⟨.hbm, 54, rfl⟩
abbrev main_call2_v0 : Ref sig .tc := ⟨.hbm, 55, rfl⟩
abbrev main_v5 : Ref sig .tc := ⟨.hbm, 56, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4096x128_0 : S4096.BroadcastsInDim S4096x128 (![0] : Fin 1 → Fin S4096x128.rank)
  bcast_S_S4096x128 : S_.BroadcastsInDim S4096x128 (![] : Fin 0 → Fin S4096x128.rank)
  bcast_S_S32768 : S_.BroadcastsInDim S32768 (![] : Fin 0 → Fin S32768.rank)
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S1x1_S32768x1_0_1 : S1x1.BroadcastsInDim S32768x1 (![0, 1] : Fin 2 → Fin S32768x1.rank)
  reducesTo_S32768x1_S32768_d1 : S32768x1.ReducesTo [1] S32768
  bcast_S32768_S32768x128_0 : S32768.BroadcastsInDim S32768x128 (![0] : Fin 1 → Fin S32768x128.rank)
  bcast_S_S32768x128 : S_.BroadcastsInDim S32768x128 (![] : Fin 0 → Fin S32768x128.rank)
  concatenates_S4096x128_S4096x128_S4096x256_d1 : Shape.Concatenates [S4096x128, S4096x128] S4096x256 1
  gather_S36864x128_S4096x1_S4096x128_1_0_n_n_0_1_1128_wf : GatherDims.WF S36864x128 S4096x1 S4096x128 [1] [0] [] [0] [] 1 ![1, 128]
  gather_S36864x128_S32768x1_S32768x128_1_0_n_n_0_1_1128_wf : GatherDims.WF S36864x128 S32768x1 S32768x128 [1] [0] [] [0] [] 1 ![1, 128]
  dot_S4096x32768_S32768x128_S4096x128_1_0_0_1_n_n_wf : DotDims.WF S4096x32768 S32768x128 S4096x128 [1] [0] [0] [1] [] []
  dot_S4096x256_S256x128_S4096x128_1_0_0_1_n_n_wf : DotDims.WF S4096x256 S256x128 S4096x128 [1] [0] [0] [1] [] []

variable [Facts₀]

def gather_S36864x128_S4096x1_S4096x128_1_0_n_n_0_1_1128 : GatherDims S36864x128 S4096x1 S4096x128 where
  offsetDims := [1]
  collapsedSliceDims := [0]
  operandBatchingDims := []
  startIndicesBatchingDims := []
  startIndexMap := [0]
  indexVectorDim := 1
  sliceSizes := ![1, 128]
  wf := gather_S36864x128_S4096x1_S4096x128_1_0_n_n_0_1_1128_wf
def gather_S36864x128_S32768x1_S32768x128_1_0_n_n_0_1_1128 : GatherDims S36864x128 S32768x1 S32768x128 where
  offsetDims := [1]
  collapsedSliceDims := [0]
  operandBatchingDims := []
  startIndicesBatchingDims := []
  startIndexMap := [0]
  indexVectorDim := 1
  sliceSizes := ![1, 128]
  wf := gather_S36864x128_S32768x1_S32768x128_1_0_n_n_0_1_1128_wf
def dot_S4096x32768_S32768x128_S4096x128_1_0_0_1_n_n : DotDims S4096x32768 S32768x128 S4096x128 where
  lhsContracting := [1]
  rhsContracting := [0]
  lhsNonContracting := [0]
  rhsNonContracting := [1]
  lhsBatch := []
  rhsBatch := []
  wf := dot_S4096x32768_S32768x128_S4096x128_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf

class Facts : Prop extends Facts₀ where

variable [Facts]
-- ==== Proof.KernelCases.lean ====
/-
  What one grid point of the kernel leaves behind, as values.

  The grid is 8 row bands by 16 source blocks, the source block the inner coordinate. At a point the body adds to a
  512 × 128 accumulator the product of the point's 512 × 2048 tile of the diffusion matrix with the 2048 source rows
  of the point's block; at a band's first point the accumulator is first set to zero; at a band's last point the
  body then joins the accumulator with the band's 512 destination rows into a 512 × 256 matrix, multiplies it by the
  weights, rectifies, and stores the band of the result. Each case's stores are read back here as those values:
  the accumulator after the point (`acc_first`, `acc_next`, `acc_last`) and the result band (`band_last`).
-/
import proofs.«145611_j60103772340411_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Hand

open Cert.KernelIdeal Cert.KernelIdeal.Gen

variable {F : FTy → Type} [FloatOps F]

theorem hz : (![0, 0] : Fin 2 → Nat) = fun _ => 0 := funext fun a => by fin_cases a <;> rfl

/-- The 2048 source rows the body reads at grid coordinates `i`: rows `2048·i₁ …` of the resident source array. -/
def slab (i : grid0.Coords) (x1 : Vec F S32768x128 .f32) : Vec F S2048x128 .f32 :=
  View.ld x1 (Rect.unit (s := S32768x128) (k0_off1 i) S2048x128.size (k0_off1_inb i))

/-- A point inside a band: the accumulator `xs0` plus the tile-by-slab product. -/
theorem acc_next (c : Dev nD) (i : grid0.Coords) (arg2 : Memref sig .tc .vmem S512x2048 .f32) (harg2 : arg2.IsWhole) (arg3 : Memref sig .tc .vmem S32768x128 .f32) (harg3 : arg3.IsWhole) (arg4 : Memref sig .tc .vmem S512x128 .f32) (harg4 : arg4.IsWhole) (arg5 : Memref sig .tc .vmem S256x128 .f32) (harg5 : arg5.IsWhole) (arg6 : Memref sig .tc .vmem S512x128 .f32) (harg6 : arg6.IsWhole) (arg7 : Memref sig .tc .vmem S512x128 .f32) (harg7 : arg7.IsWhole) (hc0 : ¬cond0_0 i) (hc1 : ¬cond0_1 i) (x0 : Vec F S512x2048 .f32) (x1 : Vec F S32768x128 .f32) (x2 : Vec F S512x128 .f32) (x3 : Vec F S256x128 .f32) (xs0 : Vec F S512x128 .f32) :
    sout0_B_0 c i arg2 harg2 arg3 harg3 arg4 harg4 arg5 harg5 arg6 harg6 arg7 harg7 hc0 hc1 x0 x1 x2 x3 xs0 = k0_pay2 x0 (slab i x1) xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  rw [View.canon_unit_zero hz]
  simp only [View.readAt_eq_ld, harg2.read_unread, harg3.read_unread, harg7.read_unread,
    View.ld_unit_zero (S := S512x2048) hz, View.ld_unit_zero (S := S512x128) hz]
  rfl

/-- A band's first point: the zero block plus the tile-by-slab product. -/
theorem acc_first (c : Dev nD) (i : grid0.Coords) (arg2 : Memref sig .tc .vmem S512x2048 .f32) (harg2 : arg2.IsWhole) (arg3 : Memref sig .tc .vmem S32768x128 .f32) (harg3 : arg3.IsWhole) (arg4 : Memref sig .tc .vmem S512x128 .f32) (harg4 : arg4.IsWhole) (arg5 : Memref sig .tc .vmem S256x128 .f32) (harg5 : arg5.IsWhole) (arg6 : Memref sig .tc .vmem S512x128 .f32) (harg6 : arg6.IsWhole) (arg7 : Memref sig .tc .vmem S512x128 .f32) (harg7 : arg7.IsWhole) (hc0 : cond0_0 i) (hc1 : ¬cond0_1 i) (x0 : Vec F S512x2048 .f32) (x1 : Vec F S32768x128 .f32) (x2 : Vec F S512x128 .f32) (x3 : Vec F S256x128 .f32) :
    sout0_A_0 c i arg2 harg2 arg3 harg3 arg4 harg4 arg5 harg5 arg6 harg6 arg7 harg7 hc0 hc1 x0 x1 x2 x3 = k0_pay2 x0 (slab i x1) k0_pay1 := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_run_names
  rw [View.canon_cons_unit_zero (S := S512x128) hz, View.readCov_unit_zero (S := S512x128) _ hz]
  simp only [View.readAt_eq_ld, harg2.read_unread, harg3.read_unread,
    View.ld_unit_zero (S := S512x2048) hz]
  rfl

/-- A band's last point leaves the accumulator as any later point does, -/
theorem acc_last (c : Dev nD) (i : grid0.Coords) (arg2 : Memref sig .tc .vmem S512x2048 .f32) (harg2 : arg2.IsWhole) (arg3 : Memref sig .tc .vmem S32768x128 .f32) (harg3 : arg3.IsWhole) (arg4 : Memref sig .tc .vmem S512x128 .f32) (harg4 : arg4.IsWhole) (arg5 : Memref sig .tc .vmem S256x128 .f32) (harg5 : arg5.IsWhole) (arg6 : Memref sig .tc .vmem S512x128 .f32) (harg6 : arg6.IsWhole) (arg7 : Memref sig .tc .vmem S512x128 .f32) (harg7 : arg7.IsWhole) (hc0 : ¬cond0_0 i) (hc1 : cond0_1 i) (x0 : Vec F S512x2048 .f32) (x1 : Vec F S32768x128 .f32) (x2 : Vec F S512x128 .f32) (x3 : Vec F S256x128 .f32) (xs0 : Vec F S512x128 .f32) :
    sout0_C_0 c i arg2 harg2 arg3 harg3 arg4 harg4 arg5 harg5 arg6 harg6 arg7 harg7 hc0 hc1 x0 x1 x2 x3 xs0 = k0_pay2 x0 (slab i x1) xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_run_names
  rw [View.canon_unit_zero hz]
  simp only [View.readAt_eq_ld, harg2.read_unread, harg3.read_unread, harg7.read_unread,
    View.ld_unit_zero (S := S512x2048) hz, View.ld_unit_zero (S := S512x128) hz]
  rfl

/-- and stores the rectified product of [accumulator | destination rows] with the weights as the result band. -/
theorem band_last (c : Dev nD) (i : grid0.Coords) (arg2 : Memref sig .tc .vmem S512x2048 .f32) (harg2 : arg2.IsWhole) (arg3 : Memref sig .tc .vmem S32768x128 .f32) (harg3 : arg3.IsWhole) (arg4 : Memref sig .tc .vmem S512x128 .f32) (harg4 : arg4.IsWhole) (arg5 : Memref sig .tc .vmem S256x128 .f32) (harg5 : arg5.IsWhole) (arg6 : Memref sig .tc .vmem S512x128 .f32) (harg6 : arg6.IsWhole) (arg7 : Memref sig .tc .vmem S512x128 .f32) (harg7 : arg7.IsWhole) (hc0 : ¬cond0_0 i) (hc1 : cond0_1 i) (x0 : Vec F S512x2048 .f32) (x1 : Vec F S32768x128 .f32) (x2 : Vec F S512x128 .f32) (x3 : Vec F S256x128 .f32) (xs0 : Vec F S512x128 .f32) :
    out0_C_4 c i arg2 harg2 arg3 harg3 arg4 harg4 arg5 harg5 arg6 harg6 arg7 harg7 hc0 hc1 x0 x1 x2 x3 xs0 = k0_pay3 (k0_pay2 x0 (slab i x1) xs0) x2 x3 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_run_names
  rw [View.canon_unit_zero hz, View.readCov_unit_zero (S := S512x128) _ hz]
  simp only [View.readAt_eq_ld, harg2.read_unread, harg3.read_unread, harg4.read_unread, harg5.read_unread, harg7.read_unread,
    View.ld_unit_zero (S := S512x2048) hz, View.ld_unit_zero (S := S512x128) hz, View.ld_unit_zero (S := S256x128) hz]
  rfl

end Cert.KernelIdeal.Hand

end
-- ==== Proof.KernelBlocks.lean ====
/-
  Where a grid point's blocks sit in the arrays.

  Point t of the 8 × 16 grid (t = 16·band + block) reads: the 512 × 2048 tile of the diffusion matrix at rows
  512·band …, columns 2048·block …; the whole source array, of which the body takes rows 2048·block … (the slab);
  the band's 512 destination rows; the whole weight matrix. The result band it writes back sits at rows 512·band ….
  Each lemma reads one of these blocks at coordinates, as the underlying array at the shifted coordinates.
-/
import proofs.«145611_j60103772340411_2_alg».proof.Proof.KernelCases
import Idealize.ShloMosaic.Lib.ValueIdx

noncomputable section

open Idealize.ShloMosaic Idealize.ShloMosaic.TcCoe Idealize.SL.Sem Idealize.ShloMosaic.ValueIdx

namespace Cert.KernelIdeal.Hand

open Cert.KernelIdeal Cert.KernelIdeal.Gen

variable {F : FTy → Type} [FloatOps F]
variable (m : (ℓ : Loc nD τ sig) → Buf (Elt F) ℓ)

/-- The printed block indices and the slab's first row, decided over the grid's 128 points. -/
theorem point_facts : ∀ t : Fin cfg0.N,
    win0_0.index t (0 : Fin 2) = t.val / 16 ∧ win0_0.index t (1 : Fin 2) = t.val % 16
    ∧ win0_1.index t (0 : Fin 2) = 0 ∧ win0_1.index t (1 : Fin 2) = 0
    ∧ win0_2.index t (0 : Fin 2) = t.val / 16 ∧ win0_2.index t (1 : Fin 2) = 0
    ∧ win0_3.index t (0 : Fin 2) = 0 ∧ win0_3.index t (1 : Fin 2) = 0
    ∧ win0_4.index t (0 : Fin 2) = t.val / 16 ∧ win0_4.index t (1 : Fin 2) = 0
    ∧ k0_off1 (grid0.coords t) (0 : Fin 2) = 2048 * (t.val % 16) ∧ k0_off1 (grid0.coords t) (1 : Fin 2) = 0 :=
  (by decide +kernel : ∀ t : Fin grid0.N, _)

/-- The diffusion tile at (r, kk) is the matrix at (512·band + r, 2048·block + kk). -/
theorem tile_apply (c : Dev nD) (t : Fin cfg0.N) (r : Fin 512) (kk : Fin 2048) (R : Fin 4096) (S : Fin 32768)
    (hR : R.val = 512 * (t.val / 16) + r.val) (hS : S.val = 2048 * (t.val % 16) + kk.val) :
    (iblk m c 0 t : Vec F S512x2048 .f32) (ix2 r kk) = (V m c main_arg1 : Vec F S4096x32768 .f32) (ix2 R S) := by
  obtain ⟨e0, e1, -⟩ := point_facts t
  unfold iblk
  rw [View.read_apply]
  show (V m c main_arg1 : Vec F S4096x32768 .f32) _ = (V m c main_arg1 : Vec F S4096x32768 .f32) _
  refine congrArg (V m c main_arg1 : Vec F S4096x32768 .f32) ?_
  funext a; apply Fin.ext
  match a with
  | ⟨0, _⟩ => show win0_0.index t (0 : Fin 2) * 512 + 1 * r.val = R.val; omega
  | ⟨1, _⟩ => show win0_0.index t (1 : Fin 2) * 2048 + 1 * kk.val = S.val; omega

/-- The resident source block is the whole source array. -/
theorem source_apply (c : Dev nD) (t : Fin cfg0.N) (s : Fin 32768) (q : Fin 128) :
    (iblk m c 1 t : Vec F S32768x128 .f32) (ix2 s q) = (V m c main_v1 : Vec F S32768x128 .f32) (ix2 s q) := by
  obtain ⟨-, -, e0, e1, -⟩ := point_facts t
  unfold iblk
  rw [View.read_apply]
  show (V m c main_v1 : Vec F S32768x128 .f32) _ = (V m c main_v1 : Vec F S32768x128 .f32) _
  refine congrArg (V m c main_v1 : Vec F S32768x128 .f32) ?_
  funext a; apply Fin.ext
  match a with
  | ⟨0, _⟩ => show win0_1.index t (0 : Fin 2) * 32768 + 1 * s.val = s.val; omega
  | ⟨1, _⟩ => show win0_1.index t (1 : Fin 2) * 128 + 1 * q.val = q.val; omega

/-- The band's destination rows at (r, q) are the destination array at (512·band + r, q). -/
theorem dest_apply (c : Dev nD) (t : Fin cfg0.N) (r : Fin 512) (q : Fin 128) (R : Fin 4096)
    (hR : R.val = 512 * (t.val / 16) + r.val) :
    (iblk m c 2 t : Vec F S512x128 .f32) (ix2 r q) = (V m c main_v0 : Vec F S4096x128 .f32) (ix2 R q) := by
  obtain ⟨-, -, -, -, e0, e1, -⟩ := point_facts t
  unfold iblk
  rw [View.read_apply]
  show (V m c main_v0 : Vec F S4096x128 .f32) _ = (V m c main_v0 : Vec F S4096x128 .f32) _
  refine congrArg (V m c main_v0 : Vec F S4096x128 .f32) ?_
  funext a; apply Fin.ext
  match a with
  | ⟨0, _⟩ => show win0_2.index t (0 : Fin 2) * 512 + 1 * r.val = R.val; omega
  | ⟨1, _⟩ => show win0_2.index t (1 : Fin 2) * 128 + 1 * q.val = q.val; omega

/-- The resident weight block is the whole weight matrix. -/
theorem weight_apply (c : Dev nD) (t : Fin cfg0.N) (k : Fin 256) (q : Fin 128) :
    (iblk m c 3 t : Vec F S256x128 .f32) (ix2 k q) = (V m c main_arg2 : Vec F S256x128 .f32) (ix2 k q) := by
  obtain ⟨-, -, -, -, -, -, e0, e1, -⟩ := point_facts t
  unfold iblk
  rw [View.read_apply]
  show (V m c main_arg2 : Vec F S256x128 .f32) _ = (V m c main_arg2 : Vec F S256x128 .f32) _
  refine congrArg (V m c main_arg2 : Vec F S256x128 .f32) ?_
  funext a; apply Fin.ext
  match a with
  | ⟨0, _⟩ => show win0_3.index t (0 : Fin 2) * 256 + 1 * k.val = k.val; omega
  | ⟨1, _⟩ => show win0_3.index t (1 : Fin 2) * 128 + 1 * q.val = q.val; omega

/-- The slab at (kk, q) is the source block at (2048·block + kk, q). -/
theorem slab_apply (t : Fin cfg0.N) (x1 : Vec F S32768x128 .f32) (kk : Fin 2048) (q : Fin 128) (S : Fin 32768)
    (hS : S.val = 2048 * (t.val % 16) + kk.val) :
    slab (grid0.coords t) x1 (ix2 kk q) = x1 (ix2 S q) := by
  obtain ⟨-, -, -, -, -, -, -, -, -, -, e0, e1⟩ := point_facts t
  unfold slab
  show x1 _ = x1 _
  refine congrArg x1 ?_
  funext a; apply Fin.ext
  match a with
  | ⟨0, _⟩ => show k0_off1 (grid0.coords t) (0 : Fin 2) + 1 * kk.val = S.val; omega
  | ⟨1, _⟩ => show k0_off1 (grid0.coords t) (1 : Fin 2) + 1 * q.val = q.val; omega

end Cert.KernelIdeal.Hand

end
-- ==== Proof.LibMatmul2d.lean ====
/-
  A matrix product of the exact instance read at an index, for two-dimensional operands.

  At the exact instance a product into a zero accumulator is, at the output index (i, j), the sum over the
  contraction index of the operands' products. The contraction index is a one-axis multi-index; the operands are
  addressed through the dimension record's index maps. This file turns that into the textbook form

      (A · B) (i, j) = Σ_{k < K} A (i, k) · B (k, j)            (M×K by K×N),
      (A · Bᵀ) (i, j) = Σ_{k < K} A (i, k) · B (j, k)           (M×K by N×K),

  with the sum over `Fin K` and every index written by coordinates, for the library's two canonical dimension
  records. A printed program's own record with the same six index lists is equal to the canonical one by `rfl`
  (its well-formedness field is a proposition), so `rw [show dot_… = DotDims.plain M K N from rfl]` brings a printed
  product under these lemmas.
-/
import Idealize.ShloMosaic.Lib.ValueIdx
import Idealize.ShloMosaic.PureOps.Ideal.Laws

noncomputable section

namespace Cert.LibMatmul2d

open Idealize.ShloMosaic Idealize.ShloMosaic.ValueIdx
open scoped BigOperators

variable {M K N : ℕ}

/-! ## M×K by K×N -/

section Plain

local notation "D" => DotDims.plain M K N

theorem plain_rank : (D).contr.rank = 1 := rfl
theorem plain_size : (D).contr.size ⟨0, by rw [plain_rank]; exact Nat.one_pos⟩ = K := rfl

/-- The left operand's row is the output's row. -/
theorem plain_lhs_row (i : Fin M) (j : Fin N) (k : (D).contr.Idx) : (D).lhsIdx (ix2 i j) k (0 : Fin 2) = i := by
  unfold DotDims.lhsIdx
  simp [DotDims.plain]
  first | rfl | exact Fin.ext rfl | (apply Fin.ext; simp)

/-- The right operand's column is the output's column. -/
theorem plain_rhs_col (i : Fin M) (j : Fin N) (k : (D).contr.Idx) : (D).rhsIdx (ix2 i j) k (1 : Fin 2) = j := by
  unfold DotDims.rhsIdx
  simp [DotDims.plain]
  first | rfl | exact Fin.ext rfl | (apply Fin.ext; simp)

/-- The product of an M×K by a K×N operand into a zero accumulator, at (i, j). -/
theorem matmul_plain_apply {φ₁ φ₂ : FTy} (a : FVec Ideal ⟨2, ![M, K]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 i k) * b (ix2 k j) := by
  rw [Ideal.matmul_constant_zero_apply, ← Equiv.sum_comp (contrEquiv1 (D) K plain_rank plain_size).symm]
  refine Finset.sum_congr rfl fun k _ => ?_
  have hl : (D).lhsIdx (ix2 i j) ((contrEquiv1 (D) K plain_rank plain_size).symm k) = ix2 i k := by
    funext ax
    match ax with
    | ⟨0, _⟩ => exact plain_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K plain_rank plain_size k
  have hr : (D).rhsIdx (ix2 i j) ((contrEquiv1 (D) K plain_rank plain_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K plain_rank plain_size k
    | ⟨1, _⟩ => exact plain_rhs_col i j _
  rw [hl, hr]

end Plain

/-! ## M×K by N×K: the right operand contracted on its last axis -/

section TransposedRhs

local notation "D" => DotDims.transposedRhs M K N

theorem trhs_rank : (D).contr.rank = 1 := rfl
theorem trhs_size : (D).contr.size ⟨0, by rw [trhs_rank]; exact Nat.one_pos⟩ = K := rfl

theorem trhs_lhs_row (i : Fin M) (j : Fin N) (k : (D).contr.Idx) : (D).lhsIdx (ix2 i j) k (0 : Fin 2) = i := by
  unfold DotDims.lhsIdx
  simp [DotDims.transposedRhs]
  first | rfl | exact Fin.ext rfl | (apply Fin.ext; simp)

theorem trhs_rhs_row (i : Fin M) (j : Fin N) (k : (D).contr.Idx) : (D).rhsIdx (ix2 i j) k (0 : Fin 2) = j := by
  unfold DotDims.rhsIdx
  simp [DotDims.transposedRhs]
  first | rfl | exact Fin.ext rfl | (apply Fin.ext; simp)

/-- The product of an M×K operand with the transpose of an N×K operand into a zero accumulator, at (i, j). -/
theorem matmul_transposedRhs_apply {φ₁ φ₂ : FTy} (a : FVec Ideal ⟨2, ![M, K]⟩ φ₁) (b : FVec Ideal ⟨2, ![N, K]⟩ φ₂)
    (i : Fin M) (j : Fin N) :
    FloatOps.matmul (D) none a b (constant ⟨2, ![M, N]⟩ .f32 0x00000000#32) (ix2 i j)
      = ∑ k : Fin K, a (ix2 i k) * b (ix2 j k) := by
  rw [Ideal.matmul_constant_zero_apply, ← Equiv.sum_comp (contrEquiv1 (D) K trhs_rank trhs_size).symm]
  refine Finset.sum_congr rfl fun k _ => ?_
  have hl : (D).lhsIdx (ix2 i j) ((contrEquiv1 (D) K trhs_rank trhs_size).symm k) = ix2 i k := by
    funext ax
    match ax with
    | ⟨0, _⟩ => exact trhs_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K trhs_rank trhs_size k
  have hr : (D).rhsIdx (ix2 i j) ((contrEquiv1 (D) K trhs_rank trhs_size).symm k) = ix2 j k := by
    funext ax
    match ax with
    | ⟨0, _⟩ => exact trhs_rhs_row i j _
    | ⟨1, _⟩ =>
      refine Fin.ext ?_
      rw [show (⟨1, by decide⟩ : Fin 2) = (1 : Fin 2) from rfl, DotDims.rhsIdx_val_of_single (D) (cr := (1 : Fin 2)) rfl]
      exact contrEquiv1_symm_val (D) K trhs_rank trhs_size k
  rw [hl, hr]

end TransposedRhs

/-! ## K×M by K×N: both operands contracted on their first axis -/

/-- `<[0], [0], [1], [1], [0, 1, 1, 1], [], []>`: the transpose of a K×M operand by a K×N operand. -/
def transposedLhs (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

section TransposedLhs

local notation "D" => transposedLhs K M N

theorem tlhs_rank : (D).contr.rank = 1 := rfl
theorem tlhs_size : (D).contr.size ⟨0, by rw [tlhs_rank]; exact Nat.one_pos⟩ = K := rfl

theorem tlhs_lhs_col (i : Fin M) (j : Fin N) (k : (D).contr.Idx) : (D).lhsIdx (ix2 i j) k (1 : Fin 2) = i := by
  unfold DotDims.lhsIdx
  simp [transposedLhs]
  first | rfl | exact Fin.ext rfl | (apply Fin.ext; simp)

theorem tlhs_rhs_col (i : Fin M) (j : Fin N) (k : (D).contr.Idx) : (D).rhsIdx (ix2 i j) k (1 : Fin 2) = j := by
  unfold DotDims.rhsIdx
  simp [transposedLhs]
  first | rfl | exact Fin.ext rfl | (apply Fin.ext; simp)

/-- The product of the transpose of a K×M operand with a K×N operand into a zero accumulator, at (i, j). -/
theorem matmul_transposedLhs_apply {φ₁ φ₂ : FTy} (a : FVec Ideal ⟨2, ![K, M]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 k i) * b (ix2 k j) := by
  rw [Ideal.matmul_constant_zero_apply, ← Equiv.sum_comp (contrEquiv1 (D) K tlhs_rank tlhs_size).symm]
  refine Finset.sum_congr rfl fun k _ => ?_
  have hl : (D).lhsIdx (ix2 i j) ((contrEquiv1 (D) K tlhs_rank tlhs_size).symm k) = ix2 k i := by
    funext ax
    match ax with
    | ⟨0, _⟩ =>
      refine Fin.ext ?_
      rw [show (⟨0, by decide⟩ : Fin 2) = (0 : Fin 2) from rfl, DotDims.lhsIdx_val_of_single (D) (cl := (0 : Fin 2)) rfl]
      exact contrEquiv1_symm_val (D) K tlhs_rank tlhs_size k
    | ⟨1, _⟩ => exact tlhs_lhs_col i j _
  have hr : (D).rhsIdx (ix2 i j) ((contrEquiv1 (D) K tlhs_rank tlhs_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K tlhs_rank tlhs_size k
    | ⟨1, _⟩ => exact tlhs_rhs_col i j _
  rw [hl, hr]

end TransposedLhs

end Cert.LibMatmul2d

end
-- ==== Proof.LibJoinColumns.lean ====
/-
  Two matrices laid side by side, read at an index, for any extents and element type.

  Joining an [a, b₁] matrix and an [a, b₂] matrix along their second axis gives an [a, c] matrix (c = b₁ + b₂) whose
  row r is the first matrix's row r followed by the second's. So the entry at (r, k) is the first matrix's entry
  (r, k) when k < b₁, and the second's entry (r, k − b₁) otherwise.
-/
import Idealize.ShloMosaic.Lib.ValueIdx
import Idealize.ShloMosaic.Lib.Pipeline.Value

noncomputable section

namespace Cert.LibJoinColumns

open Idealize.ShloMosaic Idealize.ShloMosaic.ValueIdx

variable {α : Type}

/-- A column of the joined matrix that lies in the first matrix reads that matrix. -/
theorem join_left_apply {a b₁ b₂ c : ℕ} (x : (⟨2, ![a, b₁]⟩ : Shape).Idx → α) (y : (⟨2, ![a, b₂]⟩ : Shape).Idx → α)
    (h : Shape.Concatenates [(⟨2, ![a, b₁]⟩ : Shape), ⟨2, ![a, b₂]⟩] ⟨2, ![a, c]⟩ 1)
    (r : Fin a) (k : Fin c) (k' : Fin b₁) (hk : k'.val = k.val) :
    concatenate ⟨2, ![a, c]⟩ 1 [⟨⟨2, ![a, b₁]⟩, x⟩, ⟨⟨2, ![a, b₂]⟩, y⟩] h (ix2 r k) = x (ix2 r k') :=
  concatenate_pair_apply_left (t := ⟨2, ![a, c]⟩) (s₁ := ⟨2, ![a, b₁]⟩) (s₂ := ⟨2, ![a, b₂]⟩) (1 : Fin 2) x y h (ix2 r k) rfl
    (ix2 r k') (fun b => by
      match b with
      | ⟨0, _⟩ => rfl
      | ⟨1, _⟩ => exact hk)

/-- A column of the joined matrix past the first matrix reads the second, the first's width less. -/
theorem join_right_apply {a b₁ b₂ c : ℕ} (x : (⟨2, ![a, b₁]⟩ : Shape).Idx → α) (y : (⟨2, ![a, b₂]⟩ : Shape).Idx → α)
    (h : Shape.Concatenates [(⟨2, ![a, b₁]⟩ : Shape), ⟨2, ![a, b₂]⟩] ⟨2, ![a, c]⟩ 1)
    (r : Fin a) (k : Fin c) (k' : Fin b₂) (hk : k'.val + b₁ = k.val) :
    concatenate ⟨2, ![a, c]⟩ 1 [⟨⟨2, ![a, b₁]⟩, x⟩, ⟨⟨2, ![a, b₂]⟩, y⟩] h (ix2 r k) = y (ix2 r k') :=
  concatenate_pair_apply_right (t := ⟨2, ![a, c]⟩) (s₁ := ⟨2, ![a, b₁]⟩) (s₂ := ⟨2, ![a, b₂]⟩) (1 : Fin 2) x y h (ix2 r k) rfl rfl
    (ix2 r k') (fun b hb => by
      match b with
      | ⟨0, _⟩ => rfl
      | ⟨1, _⟩ => exact absurd rfl hb)
    hk

end Cert.LibJoinColumns

end
-- ==== Proof.KernelPayload.lean ====
/-
  The body's three stored values read at an index, at the exact instance.

  With every change of float format the identity and a product into a zero accumulator the plain sum of products:
  the zero block is the zero word everywhere; the accumulator's update at (r, q) is the old entry plus the sum over
  the 2048 rows of the slab of tile entry times slab entry; the result band at (r, q) is the larger of the zero word
  and the sum over the 256 columns of [accumulator | destination rows] of that row's entry times the weight.
-/
import proofs.«145611_j60103772340411_2_alg».proof.Proof.Gen.KernelIdeal.Skeleton
import proofs.«145611_j60103772340411_2_alg».proof.Proof.LibMatmul2d
import proofs.«145611_j60103772340411_2_alg».proof.Proof.LibJoinColumns
import Idealize.ShloMosaic.Lib.ValueIdx
import Idealize.ShloMosaic.Lib.Pipeline.Value
import Idealize.ShloMosaic.PureOps.Ideal.Laws

noncomputable section

open Idealize.ShloMosaic Idealize.ShloMosaic.ValueIdx
open scoped BigOperators

namespace Cert.KernelIdeal.Hand

open Cert.KernelIdeal Cert.KernelIdeal.Gen

/-- The zero block holds the zero word at every index. -/
theorem zero_block_apply (r : Fin 512) (q : Fin 128) :
    k0_pay1 (F := Ideal) (ix2 r q) = Ideal.ofBits .f32 0x00000000#32 := by
  unfold k0_pay1
  simp only [shapeCast_self]
  rfl

/-- The accumulator's update at (r, q): the old entry plus row r of the tile against column q of the slab. -/
theorem add_product_apply (v3 : Vec Ideal S512x2048 .f32) (v8 : Vec Ideal S2048x128 .f32) (v11 : Vec Ideal S512x128 .f32)
    (r : Fin 512) (q : Fin 128) :
    k0_pay2 (F := Ideal) v3 v8 v11 (ix2 r q) = v11 (ix2 r q) + ∑ kk : Fin 2048, v3 (ix2 r kk) * v8 (ix2 kk q) := by
  unfold k0_pay2
  simp only [shapeCast_self]
  refine congrArg (v11 (ix2 r q) + ·) ?_
  exact Cert.LibMatmul2d.matmul_plain_apply (M := 512) (K := 2048) (N := 128) _ _ r q

/-- Entry (r, k) of [A | T] for two 512 × 128 blocks. -/
def joinedBlock (A T : Vec Ideal S512x128 .f32) (r : Fin 512) (k : Fin 256) : EReal :=
  if h : k.val < 128 then A (ix2 r ⟨k.val, h⟩) else T (ix2 r ⟨k.val - 128, by have := k.isLt; omega⟩)

/-- The result band at (r, q): the rectified row r of [A | T] against column q of the weights. -/
theorem rectified_apply (v20 v21 : Vec Ideal S512x128 .f32) (v25 : Vec Ideal S256x128 .f32) (r : Fin 512) (q : Fin 128) :
    k0_pay3 (F := Ideal) v20 v21 v25 (ix2 r q)
      = max (∑ k : Fin 256, joinedBlock v20 v21 r k * v25 (ix2 k q)) (Ideal.ofBits .f32 0x00000000#32) := by
  unfold k0_pay3
  rw [shapeCast_self v21]
  refine congrArg (max · (Ideal.ofBits .f32 0x00000000#32)) ?_
  refine (Cert.LibMatmul2d.matmul_plain_apply (M := 512) (K := 256) (N := 128) _ _ r q).trans ?_
  refine Finset.sum_congr rfl fun k _ => ?_
  refine congrArg (· * v25 (ix2 k q)) ?_
  unfold joinedBlock
  by_cases h : k.val < 128
  · rw [dif_pos h]
    exact Cert.LibJoinColumns.join_left_apply (a := 512) (b₁ := 128) (b₂ := 128) (c := 256) v20 v21
      concatenates_S512x128_S512x128_S512x256_d1 r k ⟨k.val, h⟩ rfl
  · rw [dif_neg h]
    exact Cert.LibJoinColumns.join_right_apply (a := 512) (b₁ := 128) (b₂ := 128) (c := 256) v20 v21
      concatenates_S512x128_S512x128_S512x256_d1 r k ⟨k.val - 128, by have := k.isLt; omega⟩ (by show k.val - 128 + 128 = k.val; omega)

end Cert.KernelIdeal.Hand

end
-- ==== Proof.LibBlockSum.lean ====
/-
  A finite sum over n·B consecutive indices, taken block by block.

  A contraction over a long axis is often computed in pieces: the axis is cut into n blocks of B entries, each block
  is summed by itself, and the partial sums are added up one after another. In a commutative monoid the order and
  the grouping of a finite sum do not matter, so the partial sums add up to the whole sum. Nothing is asked of the
  entries (no finiteness, no ring laws): the statement holds in any additive commutative monoid, the extended reals
  included.
-/
import Mathlib.Algebra.BigOperators.Fin
import Mathlib.Algebra.BigOperators.Ring.Finset
import Mathlib.Logic.Equiv.Fin.Basic

namespace Cert.LibBlockSum

open scoped BigOperators

variable {β : Type*} [AddCommMonoid β]

/-- The position, among n·B consecutive indices, of entry `r` of block `s`: `s·B + r`. -/
def blockIdx {n B : ℕ} (s : Fin n) (r : Fin B) : Fin (n * B) := finProdFinEquiv (s, r)

theorem blockIdx_val {n B : ℕ} (s : Fin n) (r : Fin B) : (blockIdx s r).val = r.val + B * s.val := rfl

/-- A sum over n·B indices is the sum, over the n blocks, of each block's B entries. -/
theorem sum_eq_sum_blocks (n B : ℕ) (g : Fin (n * B) → β) :
    ∑ k : Fin (n * B), g k = ∑ s : Fin n, ∑ r : Fin B, g (blockIdx s r) := by
  rw [← Equiv.sum_comp finProdFinEquiv g, Fintype.sum_prod_type]
  rfl

/-- The same with the blocks counted by the naturals below n (the form a fold over consecutive steps leaves):
    if `f s` is block `s`'s partial sum for every `s < n`, the partial sums add up to the whole sum. -/
theorem sum_range_blocks (n B : ℕ) (g : Fin (n * B) → β) (f : ℕ → β)
    (hf : ∀ s : Fin n, f s.val = ∑ r : Fin B, g (blockIdx s r)) :
    ∑ s ∈ Finset.range n, f s = ∑ k : Fin (n * B), g k := by
  rw [Finset.sum_range, sum_eq_sum_blocks]
  exact Finset.sum_congr rfl fun s _ => hf s

end Cert.LibBlockSum
-- ==== Proof.Spec.lean ====
/-
  What both programs compute, as one function of the four arrays the contraction sees.

  With D the [4096, 32768] diffusion matrix, S the [32768, 128] gathered source rows, T the [4096, 128] gathered
  destination rows and W the [256, 128] weights, the result at (i, q) is

      max ( Σ_{k < 256} [ D·S | T ] (i, k) · W (k, q), 0 ),

  where [ D·S | T ] is the [4096, 256] matrix whose first 128 columns are the product D·S and whose last 128
  columns are T. The product D·S contracts over 32768 source rows; computed in 16 consecutive blocks of 2048 rows
  whose partial sums are added up one after another, it is the same extended real: a finite sum in a commutative
  monoid does not depend on grouping, and adding the zero word first changes nothing. No finiteness is needed.
-/
import Idealize.ShloMosaic.Lib.ValueIdx
import Idealize.ShloMosaic.PureOps.Ideal
import Idealize.ShloMosaic.PureOps.Ideal.Laws
import proofs.«145611_j60103772340411_2_alg».proof.Proof.LibBlockSum

noncomputable section

namespace Cert.AggSpec

open Idealize.ShloMosaic Idealize.ShloMosaic.ValueIdx
open scoped BigOperators

/-- Entry (i, q) of the product D·S: row i of D against column q of S. -/
def agg (dif : FVec Ideal ⟨2, ![4096, 32768]⟩ .f32) (src : FVec Ideal ⟨2, ![32768, 128]⟩ .f32) (i : Fin 4096) (q : Fin 128) : EReal :=
  ∑ s : Fin 32768, dif (ix2 i s) * src (ix2 s q)

/-- Entry (i, k) of the matrix [ A | T ]: A's column k for k < 128, T's column k − 128 otherwise. -/
def joined (A : Fin 4096 → Fin 128 → EReal) (dst : FVec Ideal ⟨2, ![4096, 128]⟩ .f32) (i : Fin 4096) (k : Fin 256) : EReal :=
  if h : k.val < 128 then A i ⟨k.val, h⟩ else dst (ix2 i ⟨k.val - 128, by have := k.isLt; omega⟩)

/-- The result array: the rectified product of [ D·S | T ] with W. -/
def out (dif : FVec Ideal ⟨2, ![4096, 32768]⟩ .f32) (src : FVec Ideal ⟨2, ![32768, 128]⟩ .f32)
    (dst : FVec Ideal ⟨2, ![4096, 128]⟩ .f32) (w : FVec Ideal ⟨2, ![256, 128]⟩ .f32) : FVec Ideal ⟨2, ![4096, 128]⟩ .f32 :=
  fun j => max (∑ k : Fin 256, joined (agg dif src) dst (j 0) k * w (ix2 k (j 1))) (Ideal.ofBits .f32 0x00000000#32)

/-! ## The product D·S taken 2048 source rows at a time -/

/-- Source row s's term of entry (i, q) of D·S, for any natural s (zero past the last row). -/
def term (dif : FVec Ideal ⟨2, ![4096, 32768]⟩ .f32) (src : FVec Ideal ⟨2, ![32768, 128]⟩ .f32) (i : Fin 4096) (q : Fin 128) (s : ℕ) : EReal :=
  if h : s < 32768 then dif (ix2 i ⟨s, h⟩) * src (ix2 ⟨s, h⟩ q) else 0

/-- Block b's partial sum of entry (i, q): source rows 2048·b … 2048·b + 2047. -/
def blockSum (dif : FVec Ideal ⟨2, ![4096, 32768]⟩ .f32) (src : FVec Ideal ⟨2, ![32768, 128]⟩ .f32) (i : Fin 4096) (q : Fin 128) (b : ℕ) : EReal :=
  ∑ r : Fin 2048, term dif src i q (r.val + 2048 * b)

/-- The partial sums of the first n + 1 blocks, added up. -/
def accum (dif : FVec Ideal ⟨2, ![4096, 32768]⟩ .f32) (src : FVec Ideal ⟨2, ![32768, 128]⟩ .f32) (i : Fin 4096) (q : Fin 128) (n : ℕ) : EReal :=
  ∑ b ∈ Finset.range (n + 1), blockSum dif src i q b

theorem accum_zero (dif : FVec Ideal ⟨2, ![4096, 32768]⟩ .f32) (src : FVec Ideal ⟨2, ![32768, 128]⟩ .f32) (i : Fin 4096) (q : Fin 128) :
    accum dif src i q 0 = Ideal.ofBits .f32 0x00000000#32 + blockSum dif src i q 0 := by
  rw [Ideal.ofBits_zero_f32, zero_add]
  simp [accum]

theorem accum_succ (dif : FVec Ideal ⟨2, ![4096, 32768]⟩ .f32) (src : FVec Ideal ⟨2, ![32768, 128]⟩ .f32) (i : Fin 4096) (q : Fin 128) (n : ℕ) :
    accum dif src i q (n + 1) = accum dif src i q n + blockSum dif src i q (n + 1) := by
  unfold accum
  rw [Finset.sum_range_succ]

/-- All sixteen blocks together are the whole contraction. -/
theorem accum_last (dif : FVec Ideal ⟨2, ![4096, 32768]⟩ .f32) (src : FVec Ideal ⟨2, ![32768, 128]⟩ .f32) (i : Fin 4096) (q : Fin 128) :
    accum dif src i q 15 = agg dif src i q := by
  unfold accum agg
  have h := Cert.LibBlockSum.sum_range_blocks 16 2048 (fun k : Fin (16 * 2048) => term dif src i q k.val)
    (blockSum dif src i q) (fun s => by
      unfold blockSum
      exact Finset.sum_congr rfl fun r _ => by rw [Cert.LibBlockSum.blockIdx_val])
  refine h.trans ?_
  show ∑ k : Fin 32768, term dif src i q k.val = _
  exact Finset.sum_congr rfl fun k _ => by unfold term; rw [dif_pos k.isLt]

end Cert.AggSpec

end
-- ==== Proof.KernelAcc.lean ====
/-
  What the accumulator and the result band hold, point by point, at the exact instance.

  Within band b (grid points 16·b … 16·b + 15) the accumulator after block k holds, at (r, q), the sum of the first
  k + 1 block sums of entry (512·b + r, q) of the product of the diffusion matrix with the source rows: the first
  point stores the zero word plus block 0's sum, every later point adds its own block's sum to what the point before
  left. After the band's last point this is the whole contraction, and the band the point writes back is the
  specification's result at rows 512·b ….
-/
import proofs.«145611_j60103772340411_2_alg».proof.Proof.KernelBlocks
import proofs.«145611_j60103772340411_2_alg».proof.Proof.KernelPayload
import proofs.«145611_j60103772340411_2_alg».proof.Proof.Spec

noncomputable section

open Idealize.ShloMosaic Idealize.ShloMosaic.TcCoe Idealize.SL.Sem Idealize.ShloMosaic.ValueIdx
open scoped BigOperators

namespace Cert.KernelIdeal.Hand

open Cert.KernelIdeal Cert.KernelIdeal.Gen

variable (m : (ℓ : Loc nD τ sig) → Buf (Elt Ideal) ℓ)

/-- A 512 × 2048 tile and a 2048 × 128 slab that sit at block b of the two arrays: row r of the tile against
    column q of the slab is block b's sum of entry (R, q). -/
theorem block_product (dif : FVec Ideal ⟨2, ![4096, 32768]⟩ .f32) (src : FVec Ideal ⟨2, ![32768, 128]⟩ .f32)
    (x0 : Vec Ideal S512x2048 .f32) (sl : Vec Ideal S2048x128 .f32) (b : ℕ) (hb : b < 16)
    (R : Fin 4096) (r : Fin 512) (q : Fin 128)
    (h0 : ∀ (kk : Fin 2048) (S : Fin 32768), S.val = 2048 * b + kk.val → x0 (ix2 r kk) = dif (ix2 R S))
    (h1 : ∀ (kk : Fin 2048) (S : Fin 32768), S.val = 2048 * b + kk.val → sl (ix2 kk q) = src (ix2 S q)) :
    ∑ kk : Fin 2048, x0 (ix2 r kk) * sl (ix2 kk q) = Cert.AggSpec.blockSum dif src R q b := by
  unfold Cert.AggSpec.blockSum
  refine Finset.sum_congr rfl fun kk _ => ?_
  have hlt : kk.val + 2048 * b < 32768 := by have := kk.isLt; omega
  unfold Cert.AggSpec.term
  rw [dif_pos hlt]
  exact congrArg₂ (· * ·) (h0 kk ⟨kk.val + 2048 * b, hlt⟩ (by show kk.val + 2048 * b = _; omega))
    (h1 kk ⟨kk.val + 2048 * b, hlt⟩ (by show kk.val + 2048 * b = _; omega))

/-- The accumulator after point n: the first (n mod 16) + 1 block sums of its band's entries, added up. -/
theorem acc_eq (c : Dev nD) (n : ℕ) : ∀ (h : n < cfg0.N) (r : Fin 512) (q : Fin 128) (R : Fin 4096),
    R.val = 512 * (n / 16) + r.val →
    (outsAt0 m c n h).2 (ix2 r q) = Cert.AggSpec.accum (V m c main_arg1) (V m c main_v1) R q (n % 16) := by
  induction n with
  | zero =>
    intro h r q R hR
    have hprod := block_product (V m c main_arg1) (V m c main_v1) (iblk m c 0 ⟨0, h⟩) (slab (grid0.coords ⟨0, h⟩) (iblk m c 1 ⟨0, h⟩))
      ((⟨0, h⟩ : Fin cfg0.N).val % 16) (Nat.mod_lt _ (by decide)) R r q
      (fun kk S hS => tile_apply m c ⟨0, h⟩ r kk R S hR hS)
      (fun kk S hS => (slab_apply ⟨0, h⟩ (iblk m c 1 ⟨0, h⟩) kk q S hS).trans (source_apply m c ⟨0, h⟩ S q))
    rw [outsAt0_A m c ⟨0, h⟩ rfl (fun h' => absurd h' (by decide : ¬(0 % 16 = 15)))]
    dsimp only
    rw [acc_first, add_product_apply, zero_block_apply, hprod]
    exact (Cert.AggSpec.accum_zero _ _ R q).symm
  | succ n ih =>
    intro h r q R hR
    have hN : n + 1 < 128 := lt_of_lt_of_eq h (show cfg0.N = 128 from N_0)
    have hprod := block_product (V m c main_arg1) (V m c main_v1) (iblk m c 0 ⟨n + 1, h⟩) (slab (grid0.coords ⟨n + 1, h⟩) (iblk m c 1 ⟨n + 1, h⟩))
      ((⟨n + 1, h⟩ : Fin cfg0.N).val % 16) (Nat.mod_lt _ (by decide)) R r q
      (fun kk S hS => tile_apply m c ⟨n + 1, h⟩ r kk R S hR hS)
      (fun kk S hS => (slab_apply ⟨n + 1, h⟩ (iblk m c 1 ⟨n + 1, h⟩) kk q S hS).trans (source_apply m c ⟨n + 1, h⟩ S q))
    by_cases h0 : (n + 1) % 16 = 0
    · have h1 : ¬(n + 1) % 16 = 15 := by omega
      rw [outsAt0_A m c ⟨n + 1, h⟩ h0 h1]
      dsimp only
      rw [acc_first, add_product_apply, zero_block_apply, hprod]
      show _ = Cert.AggSpec.accum _ _ R q ((n + 1) % 16)
      rw [show ((⟨n + 1, h⟩ : Fin cfg0.N).val % 16) = 0 from h0]
      exact (Cert.AggSpec.accum_zero _ _ R q).symm
    · have e : (n + 1) % 16 = n % 16 + 1 := by omega
      have hprev := ih (Nat.lt_of_succ_lt h) r q R (by omega)
      by_cases h1 : (n + 1) % 16 = 15
      · rw [outsAt0_C m c ⟨n + 1, h⟩ h0 h1]
        dsimp only
        rw [acc_last, add_product_apply, hprod]
        show (outsAt0 m c n _).2 (ix2 r q) + Cert.AggSpec.blockSum _ _ R q ((n + 1) % 16) = Cert.AggSpec.accum _ _ R q ((n + 1) % 16)
        rw [hprev, e]
        exact (Cert.AggSpec.accum_succ _ _ R q (n % 16)).symm
      · rw [outsAt0_B m c ⟨n + 1, h⟩ h0 h1]
        dsimp only
        rw [acc_next, add_product_apply, hprod]
        show (outsAt0 m c n _).2 (ix2 r q) + Cert.AggSpec.blockSum _ _ R q ((n + 1) % 16) = Cert.AggSpec.accum _ _ R q ((n + 1) % 16)
        rw [hprev, e]
        exact (Cert.AggSpec.accum_succ _ _ R q (n % 16)).symm

/-- The band a band's last point writes back is the specification's result at the band's rows. -/
theorem band_eq (c : Dev nD) (t : Fin cfg0.N) (h15 : t.val % 16 = 15) (r : Fin 512) (q : Fin 128) (R : Fin 4096)
    (hR : R.val = 512 * (t.val / 16) + r.val) :
    (outsAt0 m c t.val t.isLt).1 (ix2 r q)
      = Cert.AggSpec.out (V m c main_arg1) (V m c main_v1) (V m c main_v0) (V m c main_arg2) (ix2 R q) := by
  have h0 : ¬t.val % 16 = 0 := by omega
  have hacc : ∀ q' : Fin 128, (outsAt0 m c t.val t.isLt).2 (ix2 r q') = Cert.AggSpec.agg (V m c main_arg1) (V m c main_v1) R q' :=
    fun q' => (acc_eq m c t.val t.isLt r q' R hR).trans (by rw [h15]; exact Cert.AggSpec.accum_last _ _ R q')
  rw [outsAt0_C m c t h0 h15] at hacc ⊢
  dsimp only at hacc ⊢
  rw [acc_last] at hacc
  rw [band_last, rectified_apply]
  show _ = max (∑ k : Fin 256, Cert.AggSpec.joined (Cert.AggSpec.agg (V m c main_arg1) (V m c main_v1)) (V m c main_v0) R k
      * (V m c main_arg2 : Vec Ideal S256x128 .f32) (ix2 k q)) (Ideal.ofBits .f32 0x00000000#32)
  refine congrArg (max · (Ideal.ofBits .f32 0x00000000#32)) (Finset.sum_congr rfl fun k _ => ?_)
  refine congrArg₂ (· * ·) ?_ (weight_apply m c t k q)
  unfold joinedBlock Cert.AggSpec.joined
  by_cases hk : k.val < 128
  · rw [dif_pos hk, dif_pos hk]
    exact hacc ⟨k.val, hk⟩
  · rw [dif_neg hk, dif_neg hk]
    exact dest_apply m c t r ⟨k.val - 128, by have := k.isLt; omega⟩ R hR

end Cert.KernelIdeal.Hand

end
-- ==== Proof.KernelHost.lean ====
/-
  The two row gathers in front of the contraction, each as one function of its operands.

  Both programs start by picking rows of the feature table: the destination rows by the first index vector, the
  source rows by the second. A negative index is wrapped by the table's height; the picked row is kept when the
  wrapped index lies in the table and is replaced by a fixed word otherwise. Nothing below looks inside these
  functions: they are the same on both sides, and only their results enter the contraction.
-/
import proofs.«145611_j60103772340411_2_alg».proof.Proof.Gen.KernelIdeal.Frame
import Idealize.ShloMosaic.Lib.StableHlo.Run

noncomputable section

open Idealize.ShloMosaic Idealize.ShloMosaic.TcCoe Idealize.SL.Sem Idealize.ShloMosaic.StableHlo

namespace Cert.KernelIdeal.Hand

open Cert.KernelIdeal Cert.KernelIdeal.Gen

variable {F : FTy → Type} [FloatOps F]
variable (m : (ℓ : Loc nD τ sig) → Buf (Elt F) ℓ)

/-- The 4096 destination rows picked from the table. -/
def dstRows (x : FVec F S36864x128 .f32) (idx : IVec S4096 32) : FVec F S4096x128 .f32 :=
  let wrapped : IVec S4096 32 :=
    select (cmpi .slt idx (broadcastInDim S4096 ![] bcast_S_S4096 (constantI S_ 32 0#32)))
      (addi idx (broadcastInDim S4096 ![] bcast_S_S4096 (constantI S_ 32 36864#32))) idx
  let col : IVec S4096x1 32 := broadcastInDim S4096x1 ![0] bcast_S4096_S4096x1_0 wrapped
  let inRange : IVec S4096 1 :=
    Host.reduce IntOp.andi
      (andi (cmpi .sge col (broadcastInDim S4096x1 ![] bcast_S_S4096x1 (constantI S_ 32 0#32)))
        (cmpi .sle col (broadcastInDim S4096x1 ![0, 1] bcast_S1x1_S4096x1_0_1
          (broadcastInDim S1x1 ![1] bcast_S1_S1x1_1 (constantI S1 32 36863#32)))))
      (constantI S_ 1 1#1) reducesTo_S4096x1_S4096_d1 h_S_
  select (broadcastInDim S4096x128 ![0] bcast_S4096_S4096x128_0 inRange)
    (Host.gather gather_S36864x128_S4096x1_S4096x128_1_0_n_n_0_1_1128 x col)
    (broadcastInDim S4096x128 ![] bcast_S_S4096x128 (constant S_ .f32 0x7FC00000#32))

/-- The 32768 source rows picked from the table. -/
def srcRows (x : FVec F S36864x128 .f32) (idx : IVec S32768 32) : FVec F S32768x128 .f32 :=
  let wrapped : IVec S32768 32 :=
    select (cmpi .slt idx (broadcastInDim S32768 ![] bcast_S_S32768 (constantI S_ 32 0#32)))
      (addi idx (broadcastInDim S32768 ![] bcast_S_S32768 (constantI S_ 32 36864#32))) idx
  let col : IVec S32768x1 32 := broadcastInDim S32768x1 ![0] bcast_S32768_S32768x1_0 wrapped
  let inRange : IVec S32768 1 :=
    Host.reduce IntOp.andi
      (andi (cmpi .sge col (broadcastInDim S32768x1 ![] bcast_S_S32768x1 (constantI S_ 32 0#32)))
        (cmpi .sle col (broadcastInDim S32768x1 ![0, 1] bcast_S1x1_S32768x1_0_1
          (broadcastInDim S1x1 ![1] bcast_S1_S1x1_1 (constantI S1 32 36863#32)))))
      (constantI S_ 1 1#1) reducesTo_S32768x1_S32768_d1 h_S_
  select (broadcastInDim S32768x128 ![0] bcast_S32768_S32768x128_0 inRange)
    (Host.gather gather_S36864x128_S32768x1_S32768x128_1_0_n_n_0_1_1128 x col)
    (broadcastInDim S32768x128 ![] bcast_S_S32768x128 (constant S_ .f32 0x7FC00000#32))

/-- When the contraction starts the destination-row array holds the picked destination rows, -/
theorem dest_rows (c : Dev nD) :
    V m c main_v0 = dstRows (m ((c : Thread nD τ).loc main_arg0)) (m ((c : Thread nD τ).loc main_arg3)) := by
  dsimp only [Gen.V]
  simp only [Gen.hostOps0, Gen.hostOps0_1, List.flatten_cons, List.flatten_nil, List.append_nil, List.cons_append,
    List.nil_append]
  after_results_simp
  rfl

set_option maxRecDepth 131072 in
/-- and the source-row array the picked source rows. -/
theorem source_rows (c : Dev nD) :
    V m c main_v1 = srcRows (m ((c : Thread nD τ).loc main_arg0)) (m ((c : Thread nD τ).loc main_arg4)) := by
  dsimp only [Gen.V]
  simp only [Gen.hostOps0, Gen.hostOps0_1, List.flatten_cons, List.flatten_nil, List.append_nil, List.cons_append,
    List.nil_append]
  after_results_simp
  rfl

end Cert.KernelIdeal.Hand

end
-- ==== Proof.KernelValue.lean ====
/-
  The kernel's result array, as one function of its arguments, at the exact instance.

  Only a band's last grid point writes the band back, and what it writes is the specification's result at the band's
  rows (read through the band's rectangle). The eight bands cover the 4096 rows: row i lies in band i / 512, whose
  last point is 16·(i / 512) + 15. So after the run the result array is the specification's result of the arrays the
  contraction found — the diffusion matrix and the weights as launched, the picked source and destination rows.
-/
import proofs.«145611_j60103772340411_2_alg».proof.Proof.Gen.KernelIdeal.Value
import proofs.«145611_j60103772340411_2_alg».proof.Proof.KernelAcc
import proofs.«145611_j60103772340411_2_alg».proof.Proof.KernelHost

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (m : (ℓ : Loc nD τ sig) → Buf (Elt Ideal) ℓ) (ρ : Dev nD → PrngReg)

/-- The specification's result of the arrays as the contraction finds them. -/
def found (c : Dev nD) : Buf (Elt Ideal) ((c : Thread nD τ).loc main_v2) :=
  Cert.AggSpec.out (V m c main_arg1) (V m c main_v1) (V m c main_v0) (V m c main_arg2)

/-- What a band's last point writes back is the band of `found`. -/
theorem flushed_eq (c : Dev nD) (t : Fin cfg0.N) (hf : (cfg0.win 4).flush t = true) :
    (dats m 0 c).flushed 4 t = ((cfg0.win 4).blk t).view.read (Elt Ideal) (found m c) := by
  have h15 : t.val % 16 = 15 := (flush0_4 t).mp hf
  have hN : t.val < 128 := lt_of_lt_of_eq t.isLt (show cfg0.N = 128 from N_0)
  obtain ⟨-, -, -, -, -, -, -, -, e0, e1, -⟩ := point_facts t
  rw [Cert.KernelIdeal.Value.flushed4]
  funext y
  show (outsAt0 m c t.val t.isLt).1 y = found m c (((cfg0.win 4).blk t).view.emb y)
  obtain ⟨r, q, rfl⟩ : ∃ (r : Fin 512) (q : Fin 128), y = ix2 r q := ⟨y 0, y 1, eq_ix2 (n0 := 512) (n1 := 128) y⟩
  have hlt : 512 * (t.val / 16) + r.val < 4096 := by have := r.isLt; omega
  have hemb : ((cfg0.win 4).blk t).view.emb (ix2 r q) = ix2 (⟨512 * (t.val / 16) + r.val, hlt⟩ : Fin 4096) q := by
    funext a; apply Fin.ext
    match a with
    | ⟨0, _⟩ => show win0_4.index t (0 : Fin 2) * 512 + 1 * r.val = 512 * (t.val / 16) + r.val; omega
    | ⟨1, _⟩ => show win0_4.index t (1 : Fin 2) * 128 + 1 * q.val = q.val; omega
  rw [hemb]
  exact band_eq m c t h15 r q ⟨512 * (t.val / 16) + r.val, hlt⟩ rfl

/-- An index of the result array lies in point t's band iff each coordinate lies in the band's range. -/
theorem mem_band (t : Fin cfg0.N) (i : S4096x128.Idx) :
    i ∈ ((cfg0.win 4).blk t).view.set ↔ ∀ a : Fin 2, win0_4.index t a * S512x128.size a ≤ (i a).val
      ∧ (i a).val < win0_4.index t a * S512x128.size a + S512x128.size a := by
  show i ∈ ((View.whole main_v2).slice (win0_4.rect t)).set ↔ _
  rw [View.set_slice_whole, Rect.mem_set_unit]
  exact Iff.rfl

/-- After the run the result array is `found`: the eight written bands cover it. -/
theorem final (c : Dev nD) : (dats m 0 c).arrAt 4 cfg0.N = found m c :=
  (dats m 0 c).arrAt_eq_of_cover 4 (found m c) (fun t hf => flushed_eq m c t hf) fun i => by
    have hi0 : (i 0).val < 4096 := (i 0).isLt
    have hi1 : (i 1).val < 128 := (i 1).isLt
    have hN : cfg0.N = 128 := N_0
    have hlt : 16 * ((i 0).val / 512) + 15 < cfg0.N := by rw [hN]; omega
    refine ⟨⟨16 * ((i 0).val / 512) + 15, hlt⟩, (flush0_4 _).mpr (by show (16 * ((i 0).val / 512) + 15) % 16 = 15; omega), ?_⟩
    obtain ⟨-, -, -, -, -, -, -, -, e0, e1, -⟩ := point_facts ⟨16 * ((i 0).val / 512) + 15, hlt⟩
    rw [mem_band]
    intro a
    match a with
    | ⟨0, _⟩ =>
      show win0_4.index ⟨16 * ((i 0).val / 512) + 15, hlt⟩ (0 : Fin 2) * 512 ≤ (i 0).val
        ∧ (i 0).val < win0_4.index ⟨16 * ((i 0).val / 512) + 15, hlt⟩ (0 : Fin 2) * 512 + 512
      rw [e0]
      show (16 * ((i 0).val / 512) + 15) / 16 * 512 ≤ (i 0).val ∧ (i 0).val < (16 * ((i 0).val / 512) + 15) / 16 * 512 + 512
      omega
    | ⟨1, _⟩ =>
      show win0_4.index ⟨16 * ((i 0).val / 512) + 15, hlt⟩ (1 : Fin 2) * 128 ≤ (i 1).val
        ∧ (i 1).val < win0_4.index ⟨16 * ((i 0).val / 512) + 15, hlt⟩ (1 : Fin 2) * 128 + 128
      rw [e1]
      omega

/-- The run, read: the result array at the specification's result of the launched diffusion matrix and weights and
    the picked rows; the five arguments unchanged. -/
theorem run : θ_run defs (onTc (τ := τ) (main (F := Ideal))) ⟨m, fun _ => 0, ρ⟩ fun r => ∀ c : Dev nD,
      r.2.mem ((c : Thread nD τ).loc main_v2)
        = Cert.AggSpec.out (m ((c : Thread nD τ).loc main_arg1))
            (srcRows (m ((c : Thread nD τ).loc main_arg0)) (m ((c : Thread nD τ).loc main_arg4)))
            (dstRows (m ((c : Thread nD τ).loc main_arg0)) (m ((c : Thread nD τ).loc main_arg3)))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final m c).trans (by
      unfold found
      rw [V_main_arg1, V_main_arg2, dest_rows, source_rows])), (h c).2⟩)
    (Cert.KernelIdeal.Value.run_blocks m ρ)

end Cert.KernelIdeal.Hand

end
-- ==== Proof.LibHostStack.lean ====
/-
  Stacks of matrices on the host, read at an index by coordinates, for any extents.

  A rank-3 array [K, a, b] is a stack of K matrices. Three layout steps move between the stack and its matrices:
  cutting slab k out of the stack and dropping the unit axis ([K, a, b] → [1, a, b] → [a, b]) reads the stack at
  (k, n, d); laying a matrix out as a stack of one ([a, b] → [1, a, b]) reads the matrix at (n, d) whatever the unit
  coordinate; joining four stacks of one along the leading axis reads piece k. At the exact instance the host's
  matrix product of an M × K by a K × N operand is the textbook sum over the K products.
-/
import Idealize.ShloMosaic.Lib.ValueIdx
import Idealize.ShloMosaic.Lib.ValueLayout
import Idealize.ShloMosaic.Lib.Pipeline.Value
import Idealize.ShloMosaic.Lib.KernelVsHost
import proofs.«145611_j60103772340411_2_alg».proof.Proof.LibMatmul2d

noncomputable section

namespace Cert.LibHostStack

open Idealize.ShloMosaic Idealize.ShloMosaic.ValueIdx
open scoped BigOperators

variable {α : Type}

/-- Slab `k` of a stack, as a matrix: the slice of extent one at offset `k` along the leading axis, its unit axis
    dropped, reads at (n, d) the stack at (k, n, d). -/
theorem slab_apply {K a b : ℕ} (o : ℕ) (y : (⟨3, ![K, a, b]⟩ : Shape).Idx → α)
    (hs : (⟨3, ![K, a, b]⟩ : Shape).Slices ![o, 0, 0] ⟨3, ![1, a, b]⟩)
    (hc : (⟨3, ![1, a, b]⟩ : Shape).ShapeCasts ⟨2, ![a, b]⟩) (k : Fin K) (hk : k.val = o) (n : Fin a) (d : Fin b) :
    shapeCast ⟨2, ![a, b]⟩ (extractStridedSlice ⟨3, ![1, a, b]⟩ ![o, 0, 0] y hs) hc (ix2 n d) = y (ix3 k n d) := by
  refine (shapeCast_1ab_ab_apply _ hc n d).trans ?_
  refine extractStridedSlice_apply _ y hs _ _ fun ax => ?_
  match ax with
  | ⟨0, _⟩ => show k.val = o + 0; omega
  | ⟨1, _⟩ => show n.val = 0 + n.val; omega
  | ⟨2, _⟩ => show d.val = 0 + d.val; omega

/-- A matrix laid out as a stack of one reads, at (u, n, d), the matrix at (n, d). -/
theorem lift_apply {a b : ℕ} (z : (⟨2, ![a, b]⟩ : Shape).Idx → α)
    (h : (⟨2, ![a, b]⟩ : Shape).BroadcastsInDim ⟨3, ![1, a, b]⟩ (![1, 2] : Fin 2 → Fin 3)) (u : Fin 1) (n : Fin a) (d : Fin b) :
    broadcastInDim ⟨3, ![1, a, b]⟩ ![1, 2] h z (ix3 u n d) = z (ix2 n d) := by
  have hn := n.isLt
  have hd := d.isLt
  refine broadcastInDim_apply _ h z _ _ fun ax => ?_
  match ax with
  | ⟨0, _⟩ => show n.val = if a = 1 then 0 else n.val; split_ifs with h1 <;> omega
  | ⟨1, _⟩ => show d.val = if b = 1 then 0 else d.val; split_ifs with h1 <;> omega

/-- Four stacks of one joined along the leading axis read, at (k, n, d), piece `k` at (0, n, d). -/
theorem stack4_apply {a b : ℕ} (p0 p1 p2 p3 : (⟨3, ![1, a, b]⟩ : Shape).Idx → α)
    (h : Shape.Concatenates [(⟨3, ![1, a, b]⟩ : Shape), ⟨3, ![1, a, b]⟩, ⟨3, ![1, a, b]⟩, ⟨3, ![1, a, b]⟩] ⟨3, ![4, a, b]⟩ 0)
    (k : Fin 4) (n : Fin a) (d : Fin b) :
    concatenate ⟨3, ![4, a, b]⟩ 0 [⟨⟨3, ![1, a, b]⟩, p0⟩, ⟨⟨3, ![1, a, b]⟩, p1⟩, ⟨⟨3, ![1, a, b]⟩, p2⟩, ⟨⟨3, ![1, a, b]⟩, p3⟩] h (ix3 k n d)
      = (![p0, p1, p2, p3] k) (ix3 (0 : Fin 1) n d) :=
  concatenate_ofFn_unit_apply (t := ⟨3, ![4, a, b]⟩) (s₁ := ⟨3, ![1, a, b]⟩) (0 : Fin 3) (fun q : Fin 4 => ![p0, p1, p2, p3] q) h rfl rfl
    (ix3 k n d) k rfl (ix3 (0 : Fin 1) n d) (fun bx hb => by
      match bx with
      | ⟨0, _⟩ => exact absurd rfl hb
      | ⟨1, _⟩ => rfl
      | ⟨2, _⟩ => rfl)

/-- The host's product of an M × K by a K × N operand at the exact instance, at (i, j). -/
theorem dotGeneral_plain_apply {M K N : ℕ} {φ₁ φ₂ : FTy} (x : FVec Ideal ⟨2, ![M, K]⟩ φ₁) (y : FVec Ideal ⟨2, ![K, N]⟩ φ₂)
    (i : Fin M) (j : Fin N) :
    Host.dotGeneral (DotDims.plain M K N) none x y (ix2 i j) = ∑ k : Fin K, x (ix2 i k) * y (ix2 k j) := by
  rw [← matmul_zero_eq_dotGeneral]
  exact Cert.LibMatmul2d.matmul_plain_apply x y i j

end Cert.LibHostStack

end
-- ==== Proof.RefSide.lean ====
/-
  The reference program, read back as one function of its five arguments, and that function at the exact instance.

  The program gathers two sets of rows of the feature matrix x — T, 4096 destination rows, and S, 32768 source
  rows —, multiplies the [4096, 32768] diffusion matrix D by S, lays the product beside T as a [4096, 256] matrix,
  multiplies that by the [256, 128] weights W and rectifies:  out = max([ D·S | T ]·W, 0).

  A gathered row set is one term of x and the index vector: negative indices are wrapped once by the row count, the
  rows are read, and a row whose wrapped index is still outside [0, 36863] is replaced by one fixed word. Nothing
  below looks inside that term: the run carries it whole, and the last theorem is stated for any S and T.

  `run`: every execution of the program ends with the result buffer at `tail` of the arguments' initial contents
  (through the two row sets), the arguments unchanged. `tail_eq_out`: at the exact instance `tail` is the
  specification's `out`, entry by entry — the outer product is the sum over 256 columns, a column below 128 reads
  the inner product (the sum over 32768 source rows), a column from 128 on reads T.
-/
import proofs.«145611_j60103772340411_2_alg».proof.Proof.Gen.ReferenceIdeal
import Idealize.ShloMosaic.Lib.StableHlo.Run
import Idealize.ShloMosaic.Lib.ValueIdx
import Idealize.ShloMosaic.Lib.Pipeline.Value
import Idealize.ShloMosaic.PureOps.Ideal.Laws
import proofs.«145611_j60103772340411_2_alg».proof.Proof.Spec
import proofs.«145611_j60103772340411_2_alg».proof.Proof.LibHostStack
import proofs.«145611_j60103772340411_2_alg».proof.Proof.LibJoinColumns

noncomputable section

namespace Cert.ReferenceIdeal.Hand

open Cert.ReferenceIdeal Cert.ReferenceIdeal.Gen Idealize.ShloMosaic Idealize.ShloMosaic.TcCoe Idealize.SL.Sem
  Idealize.ShloMosaic.StableHlo Idealize.ShloMosaic.ValueIdx
open scoped BigOperators

variable {F : FTy → Type} [FloatOps F]

/-! ## The program as one straight line -/

/-- The program's 52 operations in order, the three calls unfolded at their sites: the 23 of the first row
    gathering, the 23 of the second, the two products around the join, and the rectifier's three. -/
abbrev ops : List (HloOp τ sig (Elt F)) :=
  [ TRef.nullary (.of main_call0_c : TRef sig ⟨S_, .i32⟩) (constantI S_ 32 0#32),
    TRef.unary (.of main_call0_c : TRef sig ⟨S_, .i32⟩) (.of main_call0_v0 : TRef sig ⟨S4096, .i32⟩) (broadcastInDim S4096 ![] bcast_S_S4096),
    TRef.binary (.of main_arg3 : TRef sig ⟨S4096, .i32⟩) (.of main_call0_v0 : TRef sig ⟨S4096, .i32⟩) (.of main_call0_v1 : TRef sig ⟨S4096, .i1⟩) (cmpi .slt),
    TRef.nullary (.of main_call0_c_0 : TRef sig ⟨S_, .i32⟩) (constantI S_ 32 36864#32),
    TRef.unary (.of main_call0_c_0 : TRef sig ⟨S_, .i32⟩) (.of main_call0_v2 : TRef sig ⟨S4096, .i32⟩) (broadcastInDim S4096 ![] bcast_S_S4096),
    TRef.binary (.of main_arg3 : TRef sig ⟨S4096, .i32⟩) (.of main_call0_v2 : TRef sig ⟨S4096, .i32⟩) (.of main_call0_v3 : TRef sig ⟨S4096, .i32⟩) addi,
    TRef.ternary (.of main_call0_v1 : TRef sig ⟨S4096, .i1⟩) (.of main_call0_v3 : TRef sig ⟨S4096, .i32⟩) (.of main_arg3 : TRef sig ⟨S4096, .i32⟩) (.of main_call0_v4 : TRef sig ⟨S4096, .i32⟩) select,
    TRef.unary main_call0_call0.v0 (.of main_call0_v5 : TRef sig ⟨S4096x1, .i32⟩) (broadcastInDim S4096x1 ![0] bcast_S4096_S4096x1_0),
    TRef.nullary (.of main_call0_c_1 : TRef sig ⟨S1, .i32⟩) (constantI S1 32 36863#32),
    TRef.nullary (.of main_call0_c_2 : TRef sig ⟨S_, .i32⟩) (constantI S_ 32 0#32),
    TRef.unary (.of main_call0_c_2 : TRef sig ⟨S_, .i32⟩) (.of main_call0_v6 : TRef sig ⟨S4096x1, .i32⟩) (broadcastInDim S4096x1 ![] bcast_S_S4096x1),
    TRef.binary (.of main_call0_v5 : TRef sig ⟨S4096x1, .i32⟩) (.of main_call0_v6 : TRef sig ⟨S4096x1, .i32⟩) (.of main_call0_v7 : TRef sig ⟨S4096x1, .i1⟩) (cmpi .sge),
    TRef.unary (.of main_call0_c_1 : TRef sig ⟨S1, .i32⟩) (.of main_call0_v8 : TRef sig ⟨S1x1, .i32⟩) (broadcastInDim S1x1 ![1] bcast_S1_S1x1_1),
    TRef.unary (.of main_call0_v8 : TRef sig ⟨S1x1, .i32⟩) (.of main_call0_v9 : TRef sig ⟨S4096x1, .i32⟩) (broadcastInDim S4096x1 ![0, 1] bcast_S1x1_S4096x1_0_1),
    TRef.binary (.of main_call0_v5 : TRef sig ⟨S4096x1, .i32⟩) (.of main_call0_v9 : TRef sig ⟨S4096x1, .i32⟩) (.of main_call0_v10 : TRef sig ⟨S4096x1, .i1⟩) (cmpi .sle),
    TRef.binary (.of main_call0_v7 : TRef sig ⟨S4096x1, .i1⟩) (.of main_call0_v10 : TRef sig ⟨S4096x1, .i1⟩) (.of main_call0_v11 : TRef sig ⟨S4096x1, .i1⟩) andi,
    TRef.nullary (.of main_call0_c_3 : TRef sig ⟨S_, .i1⟩) (constantI S_ 1 1#1),
    TRef.binary (.of main_call0_v11 : TRef sig ⟨S4096x1, .i1⟩) (.of main_call0_c_3 : TRef sig ⟨S_, .i1⟩) (.of main_call0_v12 : TRef sig ⟨S4096, .i1⟩) (fun x v => Host.reduce IntOp.andi x v reducesTo_S4096x1_S4096_d1 h_S_),
    TRef.binary (.of main_arg0 : TRef sig ⟨S36864x128, .f32⟩) (.of main_call0_v5 : TRef sig ⟨S4096x1, .i32⟩) (.of main_call0_v13 : TRef sig ⟨S4096x128, .f32⟩) (fun x i => Host.gather gather_S36864x128_S4096x1_S4096x128_1_0_n_n_0_1_1128 x i),
    TRef.unary (.of main_call0_v12 : TRef sig ⟨S4096, .i1⟩) (.of main_call0_v14 : TRef sig ⟨S4096x128, .i1⟩) (broadcastInDim S4096x128 ![0] bcast_S4096_S4096x128_0),
    TRef.nullary (.of main_call0_cst : TRef sig ⟨S_, .f32⟩) (constant S_ .f32 0x7FC00000#32),
    TRef.unary (.of main_call0_cst : TRef sig ⟨S_, .f32⟩) (.of main_call0_v15 : TRef sig ⟨S4096x128, .f32⟩) (broadcastInDim S4096x128 ![] bcast_S_S4096x128),
    TRef.ternary (.of main_call0_v14 : TRef sig ⟨S4096x128, .i1⟩) (.of main_call0_v13 : TRef sig ⟨S4096x128, .f32⟩) (.of main_call0_v15 : TRef sig ⟨S4096x128, .f32⟩) (.of main_v0 : TRef sig ⟨S4096x128, .f32⟩) select,
    TRef.nullary (.of main_call1_c : TRef sig ⟨S_, .i32⟩) (constantI S_ 32 0#32),
    TRef.unary (.of main_call1_c : TRef sig ⟨S_, .i32⟩) (.of main_call1_v0 : TRef sig ⟨S32768, .i32⟩) (broadcastInDim S32768 ![] bcast_S_S32768),
    TRef.binary (.of main_arg4 : TRef sig ⟨S32768, .i32⟩) (.of main_call1_v0 : TRef sig ⟨S32768, .i32⟩) (.of main_call1_v1 : TRef sig ⟨S32768, .i1⟩) (cmpi .slt),
    TRef.nullary (.of main_call1_c_0 : TRef sig ⟨S_, .i32⟩) (constantI S_ 32 36864#32),
    TRef.unary (.of main_call1_c_0 : TRef sig ⟨S_, .i32⟩) (.of main_call1_v2 : TRef sig ⟨S32768, .i32⟩) (broadcastInDim S32768 ![] bcast_S_S32768),
    TRef.binary (.of main_arg4 : TRef sig ⟨S32768, .i32⟩) (.of main_call1_v2 : TRef sig ⟨S32768, .i32⟩) (.of main_call1_v3 : TRef sig ⟨S32768, .i32⟩) addi,
    TRef.ternary (.of main_call1_v1 : TRef sig ⟨S32768, .i1⟩) (.of main_call1_v3 : TRef sig ⟨S32768, .i32⟩) (.of main_arg4 : TRef sig ⟨S32768, .i32⟩) (.of main_call1_v4 : TRef sig ⟨S32768, .i32⟩) select,
    TRef.unary main_call1_call0.v0 (.of main_call1_v5 : TRef sig ⟨S32768x1, .i32⟩) (broadcastInDim S32768x1 ![0] bcast_S32768_S32768x1_0),
    TRef.nullary (.of main_call1_c_1 : TRef sig ⟨S1, .i32⟩) (constantI S1 32 36863#32),
    TRef.nullary (.of main_call1_c_2 : TRef sig ⟨S_, .i32⟩) (constantI S_ 32 0#32),
    TRef.unary (.of main_call1_c_2 : TRef sig ⟨S_, .i32⟩) (.of main_call1_v6 : TRef sig ⟨S32768x1, .i32⟩) (broadcastInDim S32768x1 ![] bcast_S_S32768x1),
    TRef.binary (.of main_call1_v5 : TRef sig ⟨S32768x1, .i32⟩) (.of main_call1_v6 : TRef sig ⟨S32768x1, .i32⟩) (.of main_call1_v7 : TRef sig ⟨S32768x1, .i1⟩) (cmpi .sge),
    TRef.unary (.of main_call1_c_1 : TRef sig ⟨S1, .i32⟩) (.of main_call1_v8 : TRef sig ⟨S1x1, .i32⟩) (broadcastInDim S1x1 ![1] bcast_S1_S1x1_1),
    TRef.unary (.of main_call1_v8 : TRef sig ⟨S1x1, .i32⟩) (.of main_call1_v9 : TRef sig ⟨S32768x1, .i32⟩) (broadcastInDim S32768x1 ![0, 1] bcast_S1x1_S32768x1_0_1),
    TRef.binary (.of main_call1_v5 : TRef sig ⟨S32768x1, .i32⟩) (.of main_call1_v9 : TRef sig ⟨S32768x1, .i32⟩) (.of main_call1_v10 : TRef sig ⟨S32768x1, .i1⟩) (cmpi .sle),
    TRef.binary (.of main_call1_v7 : TRef sig ⟨S32768x1, .i1⟩) (.of main_call1_v10 : TRef sig ⟨S32768x1, .i1⟩) (.of main_call1_v11 : TRef sig ⟨S32768x1, .i1⟩) andi,
    TRef.nullary (.of main_call1_c_3 : TRef sig ⟨S_, .i1⟩) (constantI S_ 1 1#1),
    TRef.binary (.of main_call1_v11 : TRef sig ⟨S32768x1, .i1⟩) (.of main_call1_c_3 : TRef sig ⟨S_, .i1⟩) (.of main_call1_v12 : TRef sig ⟨S32768, .i1⟩) (fun x v => Host.reduce IntOp.andi x v reducesTo_S32768x1_S32768_d1 h_S_),
    TRef.binary (.of main_arg0 : TRef sig ⟨S36864x128, .f32⟩) (.of main_call1_v5 : TRef sig ⟨S32768x1, .i32⟩) (.of main_call1_v13 : TRef sig ⟨S32768x128, .f32⟩) (fun x i => Host.gather gather_S36864x128_S32768x1_S32768x128_1_0_n_n_0_1_1128 x i),
    TRef.unary (.of main_call1_v12 : TRef sig ⟨S32768, .i1⟩) (.of main_call1_v14 : TRef sig ⟨S32768x128, .i1⟩) (broadcastInDim S32768x128 ![0] bcast_S32768_S32768x128_0),
    TRef.nullary (.of main_call1_cst : TRef sig ⟨S_, .f32⟩) (constant S_ .f32 0x7FC00000#32),
    TRef.unary (.of main_call1_cst : TRef sig ⟨S_, .f32⟩) (.of main_call1_v15 : TRef sig ⟨S32768x128, .f32⟩) (broadcastInDim S32768x128 ![] bcast_S_S32768x128),
    TRef.ternary (.of main_call1_v14 : TRef sig ⟨S32768x128, .i1⟩) (.of main_call1_v13 : TRef sig ⟨S32768x128, .f32⟩) (.of main_call1_v15 : TRef sig ⟨S32768x128, .f32⟩) (.of main_v1 : TRef sig ⟨S32768x128, .f32⟩) select,
    binary main_arg1 main_v1 main_v2 ((fun l r => Host.dotGeneral dot_S4096x32768_S32768x128_S4096x128_1_0_0_1_n_n none l r) : (⟨S4096x32768, .f32⟩ : BufTy).Contents (Elt F) → (⟨S32768x128, .f32⟩ : BufTy).Contents (Elt F) → (⟨S4096x128, .f32⟩ : BufTy).Contents (Elt F)),
    binary main_v2 main_v0 main_v3 ((fun a b => concatenate S4096x256 1 [⟨S4096x128, a⟩, ⟨S4096x128, b⟩] concatenates_S4096x128_S4096x128_S4096x256_d1) : (⟨S4096x128, .f32⟩ : BufTy).Contents (Elt F) → (⟨S4096x128, .f32⟩ : BufTy).Contents (Elt F) → (⟨S4096x256, .f32⟩ : BufTy).Contents (Elt F)),
    binary main_v3 main_arg2 main_v4 ((fun l r => Host.dotGeneral dot_S4096x256_S256x128_S4096x128_1_0_0_1_n_n none l r) : (⟨S4096x256, .f32⟩ : BufTy).Contents (Elt F) → (⟨S256x128, .f32⟩ : BufTy).Contents (Elt F) → (⟨S4096x128, .f32⟩ : BufTy).Contents (Elt F)),
    TRef.nullary main_call2.cst (constant S_ .f32 0x00000000#32),
    TRef.unary main_call2.cst main_call2.v0 (broadcastInDim S4096x128 ![] bcast_S_S4096x128),
    TRef.binary (.of main_v4 : TRef sig ⟨S4096x128, .f32⟩) main_call2.v0 main_call2.v1 maximumf ]

-- fifty-two binds re-associated: the rewrite under the chain recurses once per statement
set_option maxRecDepth 4096 in
/-- The program is that straight line: the called functions unfolded at their calls and sequencing re-associated,
    both sides are one chain of the same steps. -/
theorem main_eq (c : Dev nD) : main (F := F) c = seq ops := by
  simp only [main, fn_take.body, fn_where.body, fn_take_0.body, fn_where_1.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches buffers of the one memory the program runs in. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., binary_bufs_sub .., binary_bufs_sub .., nullary_bufs_sub .., unary_bufs_sub .., binary_bufs_sub ..⟩

/-! ## The result as a function of the arguments -/

/-- The row indices as a column: an index below zero has the row count 36864 added once, the rest are kept;
    the vector is then read as a [4096, 1] matrix. -/
def rowIdx0 (idx : Vec F S4096 .i32) : Vec F S4096x1 .i32 :=
  broadcastInDim S4096x1 ![0] bcast_S4096_S4096x1_0
    (select (cmpi .slt idx (broadcastInDim S4096 ![] bcast_S_S4096 (constantI S_ 32 0#32)))
      (addi idx (broadcastInDim S4096 ![] bcast_S_S4096 (constantI S_ 32 36864#32))) idx)

/-- The same for the 32768 source indices. -/
def rowIdx1 (idx : Vec F S32768 .i32) : Vec F S32768x1 .i32 :=
  broadcastInDim S32768x1 ![0] bcast_S32768_S32768x1_0
    (select (cmpi .slt idx (broadcastInDim S32768 ![] bcast_S_S32768 (constantI S_ 32 0#32)))
      (addi idx (broadcastInDim S32768 ![] bcast_S_S32768 (constantI S_ 32 36864#32))) idx)

/-- The 4096 destination rows T: row r of the result is row idx r of x (wrapped as above) when that lies in
    [0, 36863], and the fixed word in every column otherwise. -/
def dstRows (x : FVec F S36864x128 .f32) (idx : Vec F S4096 .i32) : FVec F S4096x128 .f32 :=
  select
    (broadcastInDim S4096x128 ![0] bcast_S4096_S4096x128_0
      (Host.reduce IntOp.andi
        (andi
          (cmpi .sge (rowIdx0 idx) (broadcastInDim S4096x1 ![] bcast_S_S4096x1 (constantI S_ 32 0#32)))
          (cmpi .sle (rowIdx0 idx)
            (broadcastInDim S4096x1 ![0, 1] bcast_S1x1_S4096x1_0_1 (broadcastInDim S1x1 ![1] bcast_S1_S1x1_1 (constantI S1 32 36863#32)))))
        (constantI S_ 1 1#1) reducesTo_S4096x1_S4096_d1 h_S_))
    (Host.gather gather_S36864x128_S4096x1_S4096x128_1_0_n_n_0_1_1128 x (rowIdx0 idx))
    (broadcastInDim S4096x128 ![] bcast_S_S4096x128 (constant S_ .f32 0x7FC00000#32))

/-- The 32768 source rows S, likewise. -/
def srcRows (x : FVec F S36864x128 .f32) (idx : Vec F S32768 .i32) : FVec F S32768x128 .f32 :=
  select
    (broadcastInDim S32768x128 ![0] bcast_S32768_S32768x128_0
      (Host.reduce IntOp.andi
        (andi
          (cmpi .sge (rowIdx1 idx) (broadcastInDim S32768x1 ![] bcast_S_S32768x1 (constantI S_ 32 0#32)))
          (cmpi .sle (rowIdx1 idx)
            (broadcastInDim S32768x1 ![0, 1] bcast_S1x1_S32768x1_0_1 (broadcastInDim S1x1 ![1] bcast_S1_S1x1_1 (constantI S1 32 36863#32)))))
        (constantI S_ 1 1#1) reducesTo_S32768x1_S32768_d1 h_S_))
    (Host.gather gather_S36864x128_S32768x1_S32768x128_1_0_n_n_0_1_1128 x (rowIdx1 idx))
    (broadcastInDim S32768x128 ![] bcast_S_S32768x128 (constant S_ .f32 0x7FC00000#32))

/-- What follows the two gatherings: max([ D·S | T ]·W, 0). -/
def tail (dif : FVec F S4096x32768 .f32) (src : FVec F S32768x128 .f32) (dst : FVec F S4096x128 .f32)
    (w : FVec F S256x128 .f32) : FVec F S4096x128 .f32 :=
  maximumf
    (Host.dotGeneral dot_S4096x256_S256x128_S4096x128_1_0_0_1_n_n none
      (concatenate S4096x256 1
        [⟨S4096x128, Host.dotGeneral dot_S4096x32768_S32768x128_S4096x128_1_0_0_1_n_n none dif src⟩, ⟨S4096x128, dst⟩]
        concatenates_S4096x128_S4096x128_S4096x256_d1) w)
    (broadcastInDim S4096x128 ![] bcast_S_S4096x128 (constant S_ .f32 0x00000000#32))

/-- The first row gathering's 23 operations. -/
abbrev opsA : List (HloOp τ sig (Elt F)) :=
  [ TRef.nullary (.of main_call0_c : TRef sig ⟨S_, .i32⟩) (constantI S_ 32 0#32),
    TRef.unary (.of main_call0_c : TRef sig ⟨S_, .i32⟩) (.of main_call0_v0 : TRef sig ⟨S4096, .i32⟩) (broadcastInDim S4096 ![] bcast_S_S4096),
    TRef.binary (.of main_arg3 : TRef sig ⟨S4096, .i32⟩) (.of main_call0_v0 : TRef sig ⟨S4096, .i32⟩) (.of main_call0_v1 : TRef sig ⟨S4096, .i1⟩) (cmpi .slt),
    TRef.nullary (.of main_call0_c_0 : TRef sig ⟨S_, .i32⟩) (constantI S_ 32 36864#32),
    TRef.unary (.of main_call0_c_0 : TRef sig ⟨S_, .i32⟩) (.of main_call0_v2 : TRef sig ⟨S4096, .i32⟩) (broadcastInDim S4096 ![] bcast_S_S4096),
    TRef.binary (.of main_arg3 : TRef sig ⟨S4096, .i32⟩) (.of main_call0_v2 : TRef sig ⟨S4096, .i32⟩) (.of main_call0_v3 : TRef sig ⟨S4096, .i32⟩) addi,
    TRef.ternary (.of main_call0_v1 : TRef sig ⟨S4096, .i1⟩) (.of main_call0_v3 : TRef sig ⟨S4096, .i32⟩) (.of main_arg3 : TRef sig ⟨S4096, .i32⟩) (.of main_call0_v4 : TRef sig ⟨S4096, .i32⟩) select,
    TRef.unary main_call0_call0.v0 (.of main_call0_v5 : TRef sig ⟨S4096x1, .i32⟩) (broadcastInDim S4096x1 ![0] bcast_S4096_S4096x1_0),
    TRef.nullary (.of main_call0_c_1 : TRef sig ⟨S1, .i32⟩) (constantI S1 32 36863#32),
    TRef.nullary (.of main_call0_c_2 : TRef sig ⟨S_, .i32⟩) (constantI S_ 32 0#32),
    TRef.unary (.of main_call0_c_2 : TRef sig ⟨S_, .i32⟩) (.of main_call0_v6 : TRef sig ⟨S4096x1, .i32⟩) (broadcastInDim S4096x1 ![] bcast_S_S4096x1),
    TRef.binary (.of main_call0_v5 : TRef sig ⟨S4096x1, .i32⟩) (.of main_call0_v6 : TRef sig ⟨S4096x1, .i32⟩) (.of main_call0_v7 : TRef sig ⟨S4096x1, .i1⟩) (cmpi .sge),
    TRef.unary (.of main_call0_c_1 : TRef sig ⟨S1, .i32⟩) (.of main_call0_v8 : TRef sig ⟨S1x1, .i32⟩) (broadcastInDim S1x1 ![1] bcast_S1_S1x1_1),
    TRef.unary (.of main_call0_v8 : TRef sig ⟨S1x1, .i32⟩) (.of main_call0_v9 : TRef sig ⟨S4096x1, .i32⟩) (broadcastInDim S4096x1 ![0, 1] bcast_S1x1_S4096x1_0_1),
    TRef.binary (.of main_call0_v5 : TRef sig ⟨S4096x1, .i32⟩) (.of main_call0_v9 : TRef sig ⟨S4096x1, .i32⟩) (.of main_call0_v10 : TRef sig ⟨S4096x1, .i1⟩) (cmpi .sle),
    TRef.binary (.of main_call0_v7 : TRef sig ⟨S4096x1, .i1⟩) (.of main_call0_v10 : TRef sig ⟨S4096x1, .i1⟩) (.of main_call0_v11 : TRef sig ⟨S4096x1, .i1⟩) andi,
    TRef.nullary (.of main_call0_c_3 : TRef sig ⟨S_, .i1⟩) (constantI S_ 1 1#1),
    TRef.binary (.of main_call0_v11 : TRef sig ⟨S4096x1, .i1⟩) (.of main_call0_c_3 : TRef sig ⟨S_, .i1⟩) (.of main_call0_v12 : TRef sig ⟨S4096, .i1⟩) (fun x v => Host.reduce IntOp.andi x v reducesTo_S4096x1_S4096_d1 h_S_),
    TRef.binary (.of main_arg0 : TRef sig ⟨S36864x128, .f32⟩) (.of main_call0_v5 : TRef sig ⟨S4096x1, .i32⟩) (.of main_call0_v13 : TRef sig ⟨S4096x128, .f32⟩) (fun x i => Host.gather gather_S36864x128_S4096x1_S4096x128_1_0_n_n_0_1_1128 x i),
    TRef.unary (.of main_call0_v12 : TRef sig ⟨S4096, .i1⟩) (.of main_call0_v14 : TRef sig ⟨S4096x128, .i1⟩) (broadcastInDim S4096x128 ![0] bcast_S4096_S4096x128_0),
    TRef.nullary (.of main_call0_cst : TRef sig ⟨S_, .f32⟩) (constant S_ .f32 0x7FC00000#32),
    TRef.unary (.of main_call0_cst : TRef sig ⟨S_, .f32⟩) (.of main_call0_v15 : TRef sig ⟨S4096x128, .f32⟩) (broadcastInDim S4096x128 ![] bcast_S_S4096x128),
    TRef.ternary (.of main_call0_v14 : TRef sig ⟨S4096x128, .i1⟩) (.of main_call0_v13 : TRef sig ⟨S4096x128, .f32⟩) (.of main_call0_v15 : TRef sig ⟨S4096x128, .f32⟩) (.of main_v0 : TRef sig ⟨S4096x128, .f32⟩) select ]

/-- The second row gathering's 23 operations. -/
abbrev opsB : List (HloOp τ sig (Elt F)) :=
  [ TRef.nullary (.of main_call1_c : TRef sig ⟨S_, .i32⟩) (constantI S_ 32 0#32),
    TRef.unary (.of main_call1_c : TRef sig ⟨S_, .i32⟩) (.of main_call1_v0 : TRef sig ⟨S32768, .i32⟩) (broadcastInDim S32768 ![] bcast_S_S32768),
    TRef.binary (.of main_arg4 : TRef sig ⟨S32768, .i32⟩) (.of main_call1_v0 : TRef sig ⟨S32768, .i32⟩) (.of main_call1_v1 : TRef sig ⟨S32768, .i1⟩) (cmpi .slt),
    TRef.nullary (.of main_call1_c_0 : TRef sig ⟨S_, .i32⟩) (constantI S_ 32 36864#32),
    TRef.unary (.of main_call1_c_0 : TRef sig ⟨S_, .i32⟩) (.of main_call1_v2 : TRef sig ⟨S32768, .i32⟩) (broadcastInDim S32768 ![] bcast_S_S32768),
    TRef.binary (.of main_arg4 : TRef sig ⟨S32768, .i32⟩) (.of main_call1_v2 : TRef sig ⟨S32768, .i32⟩) (.of main_call1_v3 : TRef sig ⟨S32768, .i32⟩) addi,
    TRef.ternary (.of main_call1_v1 : TRef sig ⟨S32768, .i1⟩) (.of main_call1_v3 : TRef sig ⟨S32768, .i32⟩) (.of main_arg4 : TRef sig ⟨S32768, .i32⟩) (.of main_call1_v4 : TRef sig ⟨S32768, .i32⟩) select,
    TRef.unary main_call1_call0.v0 (.of main_call1_v5 : TRef sig ⟨S32768x1, .i32⟩) (broadcastInDim S32768x1 ![0] bcast_S32768_S32768x1_0),
    TRef.nullary (.of main_call1_c_1 : TRef sig ⟨S1, .i32⟩) (constantI S1 32 36863#32),
    TRef.nullary (.of main_call1_c_2 : TRef sig ⟨S_, .i32⟩) (constantI S_ 32 0#32),
    TRef.unary (.of main_call1_c_2 : TRef sig ⟨S_, .i32⟩) (.of main_call1_v6 : TRef sig ⟨S32768x1, .i32⟩) (broadcastInDim S32768x1 ![] bcast_S_S32768x1),
    TRef.binary (.of main_call1_v5 : TRef sig ⟨S32768x1, .i32⟩) (.of main_call1_v6 : TRef sig ⟨S32768x1, .i32⟩) (.of main_call1_v7 : TRef sig ⟨S32768x1, .i1⟩) (cmpi .sge),
    TRef.unary (.of main_call1_c_1 : TRef sig ⟨S1, .i32⟩) (.of main_call1_v8 : TRef sig ⟨S1x1, .i32⟩) (broadcastInDim S1x1 ![1] bcast_S1_S1x1_1),
    TRef.unary (.of main_call1_v8 : TRef sig ⟨S1x1, .i32⟩) (.of main_call1_v9 : TRef sig ⟨S32768x1, .i32⟩) (broadcastInDim S32768x1 ![0, 1] bcast_S1x1_S32768x1_0_1),
    TRef.binary (.of main_call1_v5 : TRef sig ⟨S32768x1, .i32⟩) (.of main_call1_v9 : TRef sig ⟨S32768x1, .i32⟩) (.of main_call1_v10 : TRef sig ⟨S32768x1, .i1⟩) (cmpi .sle),
    TRef.binary (.of main_call1_v7 : TRef sig ⟨S32768x1, .i1⟩) (.of main_call1_v10 : TRef sig ⟨S32768x1, .i1⟩) (.of main_call1_v11 : TRef sig ⟨S32768x1, .i1⟩) andi,
    TRef.nullary (.of main_call1_c_3 : TRef sig ⟨S_, .i1⟩) (constantI S_ 1 1#1),
    TRef.binary (.of main_call1_v11 : TRef sig ⟨S32768x1, .i1⟩) (.of main_call1_c_3 : TRef sig ⟨S_, .i1⟩) (.of main_call1_v12 : TRef sig ⟨S32768, .i1⟩) (fun x v => Host.reduce IntOp.andi x v reducesTo_S32768x1_S32768_d1 h_S_),
    TRef.binary (.of main_arg0 : TRef sig ⟨S36864x128, .f32⟩) (.of main_call1_v5 : TRef sig ⟨S32768x1, .i32⟩) (.of main_call1_v13 : TRef sig ⟨S32768x128, .f32⟩) (fun x i => Host.gather gather_S36864x128_S32768x1_S32768x128_1_0_n_n_0_1_1128 x i),
    TRef.unary (.of main_call1_v12 : TRef sig ⟨S32768, .i1⟩) (.of main_call1_v14 : TRef sig ⟨S32768x128, .i1⟩) (broadcastInDim S32768x128 ![0] bcast_S32768_S32768x128_0),
    TRef.nullary (.of main_call1_cst : TRef sig ⟨S_, .f32⟩) (constant S_ .f32 0x7FC00000#32),
    TRef.unary (.of main_call1_cst : TRef sig ⟨S_, .f32⟩) (.of main_call1_v15 : TRef sig ⟨S32768x128, .f32⟩) (broadcastInDim S32768x128 ![] bcast_S_S32768x128),
    TRef.ternary (.of main_call1_v14 : TRef sig ⟨S32768x128, .i1⟩) (.of main_call1_v13 : TRef sig ⟨S32768x128, .f32⟩) (.of main_call1_v15 : TRef sig ⟨S32768x128, .f32⟩) (.of main_v1 : TRef sig ⟨S32768x128, .f32⟩) select ]

/-- The six that follow: the two products around the join, and the rectifier's three. -/
abbrev opsC : List (HloOp τ sig (Elt F)) :=
  [ binary main_arg1 main_v1 main_v2 ((fun l r => Host.dotGeneral dot_S4096x32768_S32768x128_S4096x128_1_0_0_1_n_n none l r) : (⟨S4096x32768, .f32⟩ : BufTy).Contents (Elt F) → (⟨S32768x128, .f32⟩ : BufTy).Contents (Elt F) → (⟨S4096x128, .f32⟩ : BufTy).Contents (Elt F)),
    binary main_v2 main_v0 main_v3 ((fun a b => concatenate S4096x256 1 [⟨S4096x128, a⟩, ⟨S4096x128, b⟩] concatenates_S4096x128_S4096x128_S4096x256_d1) : (⟨S4096x128, .f32⟩ : BufTy).Contents (Elt F) → (⟨S4096x128, .f32⟩ : BufTy).Contents (Elt F) → (⟨S4096x256, .f32⟩ : BufTy).Contents (Elt F)),
    binary main_v3 main_arg2 main_v4 ((fun l r => Host.dotGeneral dot_S4096x256_S256x128_S4096x128_1_0_0_1_n_n none l r) : (⟨S4096x256, .f32⟩ : BufTy).Contents (Elt F) → (⟨S256x128, .f32⟩ : BufTy).Contents (Elt F) → (⟨S4096x128, .f32⟩ : BufTy).Contents (Elt F)),
    TRef.nullary main_call2.cst (constant S_ .f32 0x00000000#32),
    TRef.unary main_call2.cst main_call2.v0 (broadcastInDim S4096x128 ![] bcast_S_S4096x128),
    TRef.binary (.of main_v4 : TRef sig ⟨S4096x128, .f32⟩) main_call2.v0 main_call2.v1 maximumf ]

theorem ops_split : (ops : List (HloOp τ sig (Elt F))) = opsA ++ (opsB ++ opsC) := rfl

/-! ## The three stretches, each from any contents

The fold of a stretch's operations at one buffer is unrolled operation by operation: an operation either writes the
buffer read, and its function applied to its operands' contents is what is there, or leaves it alone (the two
buffers are different ones, decided). The two searches over the feature matrix's rows are kept folded meanwhile:
the equations never look inside them. -/

attribute [local irreducible] Host.reduce Host.gather in
set_option maxRecDepth 8192 in
/-- The first stretch leaves the destination rows in its result buffer. -/
theorem afterA_v0 (V : Valuation τ sig (Elt F)) :
    after opsA V (main_v0 : DevRef τ sig) = dstRows (V (main_arg0 : DevRef τ sig)) (V (main_arg3 : DevRef τ sig)) := by
  after_results_simp
  rfl

/-- The first stretch writes none of the five arguments. -/
theorem afterA_keep (V : Valuation τ sig (Elt F)) :
    after opsA V (main_arg0 : DevRef τ sig) = V (main_arg0 : DevRef τ sig)
    ∧ after opsA V (main_arg1 : DevRef τ sig) = V (main_arg1 : DevRef τ sig)
    ∧ after opsA V (main_arg2 : DevRef τ sig) = V (main_arg2 : DevRef τ sig)
    ∧ after opsA V (main_arg3 : DevRef τ sig) = V (main_arg3 : DevRef τ sig)
    ∧ after opsA V (main_arg4 : DevRef τ sig) = V (main_arg4 : DevRef τ sig) := by
  refine ⟨?_, ?_, ?_, ?_, ?_⟩ <;> after_results_simp

attribute [local irreducible] Host.reduce Host.gather in
set_option maxRecDepth 8192 in
/-- The second stretch leaves the source rows in its result buffer. -/
theorem afterB_v1 (V : Valuation τ sig (Elt F)) :
    after opsB V (main_v1 : DevRef τ sig) = srcRows (V (main_arg0 : DevRef τ sig)) (V (main_arg4 : DevRef τ sig)) := by
  after_results_simp
  rfl

/-- The second stretch writes neither the first's result nor any of the five arguments. -/
theorem afterB_keep (V : Valuation τ sig (Elt F)) :
    after opsB V (main_v0 : DevRef τ sig) = V (main_v0 : DevRef τ sig)
    ∧ after opsB V (main_arg0 : DevRef τ sig) = V (main_arg0 : DevRef τ sig)
    ∧ after opsB V (main_arg1 : DevRef τ sig) = V (main_arg1 : DevRef τ sig)
    ∧ after opsB V (main_arg2 : DevRef τ sig) = V (main_arg2 : DevRef τ sig)
    ∧ after opsB V (main_arg3 : DevRef τ sig) = V (main_arg3 : DevRef τ sig)
    ∧ after opsB V (main_arg4 : DevRef τ sig) = V (main_arg4 : DevRef τ sig) := by
  refine ⟨?_, ?_, ?_, ?_, ?_, ?_⟩ <;> after_results_simp

/-- The last stretch leaves `tail` of the two row sets, the diffusion matrix and the weights in the result buffer. -/
theorem afterC_v5 (V : Valuation τ sig (Elt F)) :
    after opsC V (main_v5 : DevRef τ sig)
      = tail (V (main_arg1 : DevRef τ sig)) (V (main_v1 : DevRef τ sig)) (V (main_v0 : DevRef τ sig)) (V (main_arg2 : DevRef τ sig)) := by
  after_results_simp
  rfl

/-- The last stretch writes none of the five arguments. -/
theorem afterC_keep (V : Valuation τ sig (Elt F)) :
    after opsC V (main_arg0 : DevRef τ sig) = V (main_arg0 : DevRef τ sig)
    ∧ after opsC V (main_arg1 : DevRef τ sig) = V (main_arg1 : DevRef τ sig)
    ∧ after opsC V (main_arg2 : DevRef τ sig) = V (main_arg2 : DevRef τ sig)
    ∧ after opsC V (main_arg3 : DevRef τ sig) = V (main_arg3 : DevRef τ sig)
    ∧ after opsC V (main_arg4 : DevRef τ sig) = V (main_arg4 : DevRef τ sig) := by
  refine ⟨?_, ?_, ?_, ?_, ?_⟩ <;> after_results_simp

/-! ## The whole line -/

/-- The result buffer after all 52 operations. -/
theorem after_v5 (V : Valuation τ sig (Elt F)) :
    after ops V (main_v5 : DevRef τ sig)
      = tail (V (main_arg1 : DevRef τ sig)) (srcRows (V (main_arg0 : DevRef τ sig)) (V (main_arg4 : DevRef τ sig)))
          (dstRows (V (main_arg0 : DevRef τ sig)) (V (main_arg3 : DevRef τ sig))) (V (main_arg2 : DevRef τ sig)) := by
  rw [ops_split, after_append, after_append, afterC_v5,
    (afterB_keep _).2.2.1, afterB_v1, (afterB_keep _).1, (afterB_keep _).2.2.2.1,
    (afterA_keep _).2.1, (afterA_keep _).1, (afterA_keep _).2.2.2.2, afterA_v0, (afterA_keep _).2.2.1]

/-- The five arguments after all 52 operations. -/
theorem after_keep (V : Valuation τ sig (Elt F)) :
    after ops V (main_arg0 : DevRef τ sig) = V (main_arg0 : DevRef τ sig)
    ∧ after ops V (main_arg1 : DevRef τ sig) = V (main_arg1 : DevRef τ sig)
    ∧ after ops V (main_arg2 : DevRef τ sig) = V (main_arg2 : DevRef τ sig)
    ∧ after ops V (main_arg3 : DevRef τ sig) = V (main_arg3 : DevRef τ sig)
    ∧ after ops V (main_arg4 : DevRef τ sig) = V (main_arg4 : DevRef τ sig) := by
  rw [ops_split, after_append, after_append]
  exact ⟨((afterC_keep _).1.trans (afterB_keep _).2.1).trans (afterA_keep _).1,
    ((afterC_keep _).2.1.trans (afterB_keep _).2.2.1).trans (afterA_keep _).2.1,
    ((afterC_keep _).2.2.1.trans (afterB_keep _).2.2.2.1).trans (afterA_keep _).2.2.1,
    ((afterC_keep _).2.2.2.1.trans (afterB_keep _).2.2.2.2.1).trans (afterA_keep _).2.2.2.1,
    ((afterC_keep _).2.2.2.2.trans (afterB_keep _).2.2.2.2.2).trans (afterA_keep _).2.2.2.2⟩

/-! ## The run -/

/-- On every device, for any float values, from any memory with zero counters: every weakly fair execution of the
    program terminates with the result buffer at `tail` of the arguments' initial contents — the two row sets
    taken from the feature matrix by the two index vectors — and the five arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v5)
          = tail (m ((c.tc : Thread nD τ).loc main_arg1)) (srcRows (m ((c.tc : Thread nD τ).loc main_arg0)) (m ((c.tc : Thread nD τ).loc main_arg4)))
              (dstRows (m ((c.tc : Thread nD τ).loc main_arg0)) (m ((c.tc : Thread nD τ).loc main_arg3))) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨(h c main_v5).trans (after_v5 (launchContents m c)),
        (h c main_arg0).trans (after_keep (launchContents m c)).1,
        (h c main_arg1).trans (after_keep (launchContents m c)).2.1,
        (h c main_arg2).trans (after_keep (launchContents m c)).2.2.1,
        (h c main_arg3).trans (after_keep (launchContents m c)).2.2.2.1,
        (h c main_arg4).trans (after_keep (launchContents m c)).2.2.2.2⟩)
    (run_seq scopedRefs_eq scopedSems_eq defs main (fun _ => ops) main_eq (fun _ => ops_sub) m ρ)

/-! ## The tail at the exact instance -/

/-- At the exact instance `tail` is the specification's `out`. At entry (i, q): the rectifier is `max` against the
    zero word; the outer product is the sum over the 256 columns k of the joined matrix's (i, k) times W (k, q); a
    column k < 128 of the joined matrix reads the inner product at (i, k), the sum over the 32768 source rows; a
    column k ≥ 128 reads T at (i, k − 128). -/
theorem tail_eq_out (dif : FVec Ideal S4096x32768 .f32) (src : FVec Ideal S32768x128 .f32)
    (dst : FVec Ideal S4096x128 .f32) (w : FVec Ideal S256x128 .f32) :
    tail (F := Ideal) dif src dst w = Cert.AggSpec.out dif src dst w := by
  funext j
  obtain ⟨i, q, rfl⟩ : ∃ (i : Fin 4096) (q : Fin 128), j = ix2 i q := ⟨j 0, j 1, eq_ix2 j⟩
  unfold tail Cert.AggSpec.out
  refine (maximumf_apply _ _ _).trans ?_
  refine congrArg₂ max ?_ rfl
  refine (Cert.LibHostStack.dotGeneral_plain_apply (M := 4096) (K := 256) (N := 128) _ w i q).trans ?_
  refine Finset.sum_congr rfl fun k _ => ?_
  refine congrArg₂ (· * ·) ?_ rfl
  show _ = Cert.AggSpec.joined (Cert.AggSpec.agg dif src) dst i k
  unfold Cert.AggSpec.joined
  by_cases h : k.val < 128
  · rw [dif_pos h]
    refine (Cert.LibJoinColumns.join_left_apply _ dst _ i k ⟨k.val, h⟩ rfl).trans ?_
    exact Cert.LibHostStack.dotGeneral_plain_apply (M := 4096) (K := 32768) (N := 128) dif src i ⟨k.val, h⟩
  · rw [dif_neg h]
    exact Cert.LibJoinColumns.join_right_apply _ dst _ i k ⟨k.val - 128, by have := k.isLt; omega⟩
      (by show k.val - 128 + 128 = k.val; omega)

end Cert.ReferenceIdeal.Hand

end
-- ==== Proof.lean ====
/-
  The kernel computes, for every destination row i and output column q,

      max ( Σ_{k < 256} [ D·S | T ] (i, k) · W (k, q), 0 ),

  D the diffusion matrix, S and T the source and destination rows picked from the feature table, W the weights:
  the product D·S accumulated over sixteen blocks of 2048 source rows per band of 512 destination rows, the band's
  result written once, at the band's last block. The reference computes the same expression with one product over
  all 32768 source rows. Over the extended reals the two agree entry by entry: a finite sum does not depend on how
  it is grouped, and starting an accumulation from the zero word changes nothing; no finiteness of the inputs is
  used. The row picks are the same operations of the same operands in both programs and are never opened.

  The three frames: the two kernel programs' are the generated frame theorems; the reference's is its run with the
  result dropped. The idealization rewrote nothing, so there is nothing to preserve.
-/
import proofs.«145611_j60103772340411_2_alg».proof.Defs
import proofs.«145611_j60103772340411_2_alg».proof.Proof.Gen.Kernel.Frame
import proofs.«145611_j60103772340411_2_alg».proof.Proof.Gen.KernelIdeal.Frame
import proofs.«145611_j60103772340411_2_alg».proof.Proof.Gen.Pre_finite_inputs
import proofs.«145611_j60103772340411_2_alg».proof.Proof.KernelValue
import proofs.«145611_j60103772340411_2_alg».proof.Proof.RefSide
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Hand.run (F := Ideal) m ρ)

theorem preserves : Cert.preserves_Kernel_KernelIdeal := trivial

/-- The destination-row pick is one function in both programs. -/
theorem dstRows_agree (x : FVec Ideal Cert.KernelIdeal.S36864x128 .f32) (idx : IVec Cert.KernelIdeal.S4096 32) :
    Cert.ReferenceIdeal.Hand.dstRows (F := Ideal) x idx = Cert.KernelIdeal.Hand.dstRows (F := Ideal) x idx := rfl

/-- The source-row pick is one function in both programs. -/
theorem srcRows_agree (x : FVec Ideal Cert.KernelIdeal.S36864x128 .f32) (idx : IVec Cert.KernelIdeal.S32768 32) :
    Cert.ReferenceIdeal.Hand.srcRows (F := Ideal) x idx = Cert.KernelIdeal.Hand.srcRows (F := Ideal) x idx := rfl

/-- Both programs end with the specification's result of arguments that agree. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Hand.run (F := Ideal) m' ρ')
  rw [Cert.ReferenceIdeal.Hand.tail_eq_out, (hagree c).1, (hagree c).2.1, (hagree c).2.2.1, (hagree c).2.2.2.1,
    (hagree c).2.2.2.2, dstRows_agree, srcRows_agree]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
